-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x128x256 : Shape := ⟨4, ![8, 128, 128, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S8x128x128x256 : S_.BroadcastsInDim S8x128x128x256 (![] : Fin 0 → Fin S8x128x128x256.rank)
  reducesTo_S8x128x128x256_S_d0_1_2_3 : S8x128x128x256.ReducesTo [0, 1, 2, 3] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg13 : FVec F S128 .f32) (main_arg19 : FVec F S1 .f32) (main_v98 : IVec S_ 1) (main_v101 : IVec S_ 1) : IVec S_ 1 :=
  let main_v102 : IVec S_ 1 := andi main_v98 main_v101
  let main_cst_40 : FVec F S_ .f32 := constant S_ .f32 0x00000000#32
  let main_v103 : FVec F S128 .f32 := broadcastInDim S128 ![] bcast_S_S128 main_cst_40
  let main_v104 : IVec S128 1 := cmpf .oge main_arg13 main_v103
  let main_c_41 : IVec S_ 1 := constantI S_ 1 1#1
  let main_v105 : IVec S_ 1 := (fun x v => Host.reduce IntOp.andi x v reducesTo_S128_S_d0 h_S_) main_v104 main_c_41
  let main_v106 : IVec S_ 1 := andi main_v102 main_v105
  let main_cst_42 : FVec F S_ .f32 := constant S_ .f32 0x00000000#32
  let main_v107 : FVec F S1 .f32 := broadcastInDim S1 ![] bcast_S_S1 main_cst_42
  let main_v108 : IVec S1 1 := cmpf .oge main_arg19 main_v107
  let main_c_43 : IVec S_ 1 := constantI S_ 1 1#1
  let main_v109 : IVec S_ 1 := (fun x v => Host.reduce IntOp.andi x v reducesTo_S1_S_d0 h_S_) main_v108 main_c_43
  let main_v110 : IVec S_ 1 := andi main_v106 main_v109
  main_v110

def fn_part5 {F : FTy → Type} [FloatOps F] (main_arg7 : FVec F S128 .f32) (main_arg13 : FVec F S128 .f32) (main_arg18 : FVec F S1 .f32) (main_arg19 : FVec F S1 .f32) (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  let main_v89 : FVec F S1 .f32 := Host.absf main_arg18
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  let main_v94 : FVec F S1 .f32 := Host.absf main_arg19
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  let main_cst_38 : FVec F S_ .f32 := constant S_ .f32 0x00000000#32
  let main_v99 : FVec F S128 .f32 := broadcastInDim S128 ![] bcast_S_S128 main_cst_38
  let main_v100 : IVec S128 1 := cmpf .oge main_arg7 main_v99
  let main_c_39 : IVec S_ 1 := constantI S_ 1 1#1
  let main_v101 : IVec S_ 1 := (fun x v => Host.reduce IntOp.andi x v reducesTo_S128_S_d0 h_S_) main_v100 main_c_39
  fn_part6 (F := F) main_arg13 main_arg19 main_v98 main_v101

def fn_part4 {F : FTy → Type} [FloatOps F] (main_arg7 : FVec F S128 .f32) (main_arg13 : FVec F S128 .f32) (main_arg14 : FVec F S128x1 .f32) (main_arg15 : FVec F S1 .f32) (main_arg16 : FVec F S1 .f32) (main_arg17 : FVec F S1 .f32) (main_arg18 : FVec F S1 .f32) (main_arg19 : FVec F S1 .f32) (main_v63 : IVec S_ 1) (main_v67 : IVec S_ 1) : IVec S_ 1 :=
  let main_v68 : IVec S_ 1 := andi main_v63 main_v67
  let main_v69 : FVec F S128x1 .f32 := Host.absf main_arg14
  let main_cst_26 : FVec F S_ .f32 := constant S_ .f32 0x7F800000#32
  let main_v70 : FVec F S128x1 .f32 := broadcastInDim S128x1 ![] bcast_S_S128x1 main_cst_26
  let main_v71 : IVec S128x1 1 := cmpf .olt main_v69 main_v70
  let main_c_27 : IVec S_ 1 := constantI S_ 1 1#1
  let main_v72 : IVec S_ 1 := (fun x v => Host.reduce IntOp.andi x v reducesTo_S128x1_S_d0_1 h_S_) main_v71 main_c_27
  let main_v73 : IVec S_ 1 := andi main_v68 main_v72
  let main_v74 : FVec F S1 .f32 := Host.absf main_arg15
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  let main_v79 : FVec F S1 .f32 := Host.absf main_arg16
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  let main_v84 : FVec F S1 .f32 := Host.absf main_arg17
  let main_cst_32 : FVec F S_ .f32 := constant S_ .f32 0x7F800000#32
  fn_part5 (F := F) main_arg7 main_arg13 main_arg18 main_arg19 main_v83 main_v84 main_cst_32

def fn_part3 {F : FTy → Type} [FloatOps F] (main_arg7 : FVec F S128 .f32) (main_arg11 : FVec F S128 .f32) (main_arg12 : FVec F S128 .f32) (main_arg13 : FVec F S128 .f32) (main_arg14 : FVec F S128x1 .f32) (main_arg15 : FVec F S1 .f32) (main_arg16 : FVec F S1 .f32) (main_arg17 : FVec F S1 .f32) (main_arg18 : FVec F S1 .f32) (main_arg19 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg7 main_arg13 main_arg14 main_arg15 main_arg16 main_arg17 main_arg18 main_arg19 main_v63 main_v67

def fn_part2 {F : FTy → Type} [FloatOps F] (main_arg7 : FVec F S128 .f32) (main_arg8 : FVec F S256x128 .f32) (main_arg9 : FVec F S128 .f32) (main_arg10 : FVec F S128 .f32) (main_arg11 : FVec F S128 .f32) (main_arg12 : FVec F S128 .f32) (main_arg13 : FVec F S128 .f32) (main_arg14 : FVec F S128x1 .f32) (main_arg15 : FVec F S1 .f32) (main_arg16 : FVec F S1 .f32) (main_arg17 : FVec F S1 .f32) (main_arg18 : FVec F S1 .f32) (main_arg19 : FVec F S1 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x128 .f32 := Host.absf main_arg8
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg7 main_arg11 main_arg12 main_arg13 main_arg14 main_arg15 main_arg16 main_arg17 main_arg18 main_arg19 main_v48 main_v49 main_v50

def fn_part1 {F : FTy → Type} [FloatOps F] (main_arg4 : FVec F S128 .f32) (main_arg5 : FVec F S128 .f32) (main_arg6 : FVec F S128 .f32) (main_arg7 : FVec F S128 .f32) (main_arg8 : FVec F S256x128 .f32) (main_arg9 : FVec F S128 .f32) (main_arg10 : FVec F S128 .f32) (main_arg11 : FVec F S128 .f32) (main_arg12 : FVec F S128 .f32) (main_arg13 : FVec F S128 .f32) (main_arg14 : FVec F S128x1 .f32) (main_arg15 : FVec F S1 .f32) (main_arg16 : FVec F S1 .f32) (main_arg17 : FVec F S1 .f32) (main_arg18 : FVec F S1 .f32) (main_arg19 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S8x128x128x256 .f32) (main_arg1 : FVec F S8x128x128x256 .f32) (main_arg2 : FVec F S256x128 .f32) (main_arg3 : FVec F S128 .f32) (main_arg4 : FVec F S128 .f32) (main_arg5 : FVec F S128 .f32) (main_arg6 : FVec F S128 .f32) (main_arg7 : FVec F S128 .f32) (main_arg8 : FVec F S256x128 .f32) (main_arg9 : FVec F S128 .f32) (main_arg10 : FVec F S128 .f32) (main_arg11 : FVec F S128 .f32) (main_arg12 : FVec F S128 .f32) (main_arg13 : FVec F S128 .f32) (main_arg14 : FVec F S128x1 .f32) (main_arg15 : FVec F S1 .f32) (main_arg16 : FVec F S1 .f32) (main_arg17 : FVec F S1 .f32) (main_arg18 : FVec F S1 .f32) (main_arg19 : FVec F S1 .f32) : IVec S_ 1 :=
  let main_v0 : FVec F S8x128x128x256 .f32 := Host.absf main_arg0
  let main_cst : FVec F S_ .f32 := constant S_ .f32 0x7F800000#32
  let main_v1 : FVec F S8x128x128x256 .f32 := broadcastInDim S8x128x128x256 ![] bcast_S_S8x128x128x256 main_cst
  let main_v2 : IVec S8x128x128x256 1 := cmpf .olt main_v0 main_v1
  let main_c : IVec S_ 1 := constantI S_ 1 1#1
  let main_v3 : IVec S_ 1 := (fun x v => Host.reduce IntOp.andi x v reducesTo_S8x128x128x256_S_d0_1_2_3 h_S_) main_v2 main_c
  let main_v4 : FVec F S8x128x128x256 .f32 := Host.absf main_arg1
  let main_cst_0 : FVec F S_ .f32 := constant S_ .f32 0x7F800000#32
  let main_v5 : FVec F S8x128x128x256 .f32 := broadcastInDim S8x128x128x256 ![] bcast_S_S8x128x128x256 main_cst_0
  let main_v6 : IVec S8x128x128x256 1 := cmpf .olt main_v4 main_v5
  let main_c_1 : IVec S_ 1 := constantI S_ 1 1#1
  let main_v7 : IVec S_ 1 := (fun x v => Host.reduce IntOp.andi x v reducesTo_S8x128x128x256_S_d0_1_2_3 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S8x128x128x256 : Shape := ⟨4, ![8, 128, 128, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩
abbrev S1x128 : Shape := ⟨2, ![1, 128]⟩
abbrev S1x1 : Shape := ⟨2, ![1, 1]⟩
abbrev S131072x256 : Shape := ⟨2, ![131072, 256]⟩
abbrev S131072x128 : Shape := ⟨2, ![131072, 128]⟩
abbrev S4096x256 : Shape := ⟨2, ![4096, 256]⟩
abbrev S4096x128 : Shape := ⟨2, ![4096, 128]⟩
abbrev S4096 : Shape := ⟨1, ![4096]⟩
abbrev S4096x1 : Shape := ⟨2, ![4096, 1]⟩
abbrev S8x128x128x128 : Shape := ⟨4, ![8, 128, 128, 128]⟩

abbrev nBuf : Space → Nat
  | .hbm => 67
  | .vmem => 12
  | .smem => 0
  | _ => 0

abbrev bufTy : (tb : Table) → Fin (tcTables nBuf tb) → BufTy
  | .hbm, ⟨0, _⟩ => ⟨S8x128x128x256, .f32⟩
  | .hbm, ⟨1, _⟩ => ⟨S8x128x128x256, .f32⟩
  | .hbm, ⟨2, _⟩ => ⟨S256x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128x1, .f32⟩
  | .hbm, ⟨15, _⟩ => ⟨S1, .f32⟩
  | .hbm, ⟨16, _⟩ => ⟨S1, .f32⟩
  | .hbm, ⟨17, _⟩ => ⟨S1, .f32⟩
  | .hbm, ⟨18, _⟩ => ⟨S1, .f32⟩
  | .hbm, ⟨19, _⟩ => ⟨S1, .f32⟩
  | .hbm, ⟨20, _⟩ => ⟨S_, .f32⟩
  | .hbm, ⟨21, _⟩ => ⟨S128, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S1x128, .f32⟩
  | .hbm, ⟨26, _⟩ => ⟨S256x128, .f32⟩
  | .hbm, ⟨27, _⟩ => ⟨S256x128, .f32⟩
  | .hbm, ⟨28, _⟩ => ⟨S128, .f32⟩
  | .hbm, ⟨29, _⟩ => ⟨S128, .f32⟩
  | .hbm, ⟨30, _⟩ => ⟨S128, .f32⟩
  | .hbm, ⟨31, _⟩ => ⟨S128, .f32⟩
  | .hbm, ⟨32, _⟩ => ⟨S_, .f32⟩
  | .hbm, ⟨33, _⟩ => ⟨S128, .f32⟩
  | .hbm, ⟨34, _⟩ => ⟨S128, .f32⟩
  | .hbm, ⟨35, _⟩ => ⟨S128, .f32⟩
  | .hbm, ⟨36, _⟩ => ⟨S128, .f32⟩
  | .hbm, ⟨37, _⟩ => ⟨S1x128, .f32⟩
  | .hbm, ⟨38, _⟩ => ⟨S256x128, .f32⟩
  | .hbm, ⟨39, _⟩ => ⟨S256x128, .f32⟩
  | .hbm, ⟨40, _⟩ => ⟨S128, .f32⟩
  | .hbm, ⟨41, _⟩ => ⟨S128, .f32⟩
  | .hbm, ⟨42, _⟩ => ⟨S128, .f32⟩
  | .hbm, ⟨43, _⟩ => ⟨S128, .f32⟩
  | .hbm, ⟨44, _⟩ => ⟨S_, .f32⟩
  | .hbm, ⟨45, _⟩ => ⟨S1, .f32⟩
  | .hbm, ⟨46, _⟩ => ⟨S1, .f32⟩
  | .hbm, ⟨47, _⟩ => ⟨S1, .f32⟩
  | .hbm, ⟨48, _⟩ => ⟨S1, .f32⟩
  | .hbm, ⟨49, _⟩ => ⟨S1x1, .f32⟩
  | .hbm, ⟨50, _⟩ => ⟨S128x1, .f32⟩
  | .hbm, ⟨51, _⟩ => ⟨S128x1, .f32⟩
  | .hbm, ⟨52, _⟩ => ⟨S1, .f32⟩
  | .hbm, ⟨53, _⟩ => ⟨S1, .f32⟩
  | .hbm, ⟨54, _⟩ => ⟨S1, .f32⟩
  | .hbm, ⟨55, _⟩ => ⟨S1, .f32⟩
  | .hbm, ⟨56, _⟩ => ⟨S256x128, .bf16⟩
  | .hbm, ⟨57, _⟩ => ⟨S256x128, .bf16⟩
  | .hbm, ⟨58, _⟩ => ⟨S1x128, .f32⟩
  | .hbm, ⟨59, _⟩ => ⟨S1x128, .f32⟩
  | .hbm, ⟨60, _⟩ => ⟨S128, .f32⟩
  | .hbm, ⟨61, _⟩ => ⟨S1x128, .f32⟩
  | .hbm, ⟨62, _⟩ => ⟨S1x1, .f32⟩
  | .hbm, ⟨63, _⟩ => ⟨S131072x256, .f32⟩
  | .hbm, ⟨64, _⟩ => ⟨S131072x256, .f32⟩
  | .hbm, ⟨65, _⟩ => ⟨S131072x128, .f32⟩
  | .hbm, ⟨66, _⟩ => ⟨S8x128x128x128, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S256x128, .bf16⟩
  | .local _ .vmem, ⟨5, _⟩ => ⟨S1x128, .f32⟩
  | .local _ .vmem, ⟨6, _⟩ => ⟨S256x128, .bf16⟩
  | .local _ .vmem, ⟨7, _⟩ => ⟨S1x128, .f32⟩
  | .local _ .vmem, ⟨8, _⟩ => ⟨S1x128, .f32⟩
  | .local _ .vmem, ⟨9, _⟩ => ⟨S1x1, .f32⟩
  | .local _ .vmem, ⟨10, _⟩ => ⟨S4096x128, .f32⟩
  | .local _ .vmem, ⟨11, _⟩ => ⟨S4096x128, .f32⟩
  | _, _ => ⟨S8x128x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_0 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_1 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S128 : S_.BroadcastsInDim S128 (![] : Fin 0 → Fin S128.rank)
  bcast_S128_S1x128_1 : S128.BroadcastsInDim S1x128 (![1] : Fin 1 → Fin S1x128.rank)
  bcast_S1x128_S256x128_0_1 : S1x128.BroadcastsInDim S256x128 (![0, 1] : Fin 2 → Fin S256x128.rank)
  bcast_S_S1 : S_.BroadcastsInDim S1 (![] : Fin 0 → Fin S1.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  bitsLt_bf16_f32 : FTy.bits .bf16 < FTy.bits .f32
  shapeCasts_S128_S1x128 : S128.ShapeCasts S1x128
  shapeCasts_S128x1_S128 : S128x1.ShapeCasts S128
  shapeCasts_S1_S1x1 : S1.ShapeCasts S1x1
  shapeCasts_S8x128x128x256_S131072x256 : S8x128x128x256.ShapeCasts S131072x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  reduces_S4096x128_S4096 : S4096x128.Reduces [1] S4096
  shapeCasts_S4096_S4096x1 : S4096.ShapeCasts S4096x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  broadcasts_S4096x1_S4096x128 : S4096x1.Broadcasts S4096x128
  inb_S4096x128_S4096x128_0_0 : ∀ a, (![0, 0] : Fin 2 → Nat) a + S4096x128.size a ≤ S4096x128.size a
  h_S4096x128 : 0 < S4096x128.numel
  shapeCasts_S131072x128_S8x128x128x128 : S131072x128.ShapeCasts S8x128x128x128
  dot_S4096x256_S256x128_S4096x128_1_0_0_1_n_n_wf : DotDims.WF S4096x256 S256x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S131072x256.size a
  hwx0_0 : ∀ i : grid0.Coords, EltTy.bits .f32 = 32 ∨ (Rect.block (s := S131072x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S131072x256.size a
  hwx0_1 : ∀ i : grid0.Coords, EltTy.bits .f32 = 32 ∨ (Rect.block (s := S131072x256) S4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .bf16 = 32 ∨ (Rect.block (s := S256x128) S256x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .bf16 = 32 ∨ (Rect.block (s := S256x128) S256x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x128.size a ≤ S131072x128.size a
  hwx0_8 : ∀ i : grid0.Coords, EltTy.bits .f32 = 32 ∨ (Rect.block (s := S131072x128) S4096x128.size (cc0_transform_8 i) (hinb0_8 i)).WholeWords (EltTy.packing .f32)

variable [Facts₀]

def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf

abbrev win0_0 : Pipeline.Window sig grid0 :=
  Pipeline.Window.ofSpec (Memref.whole main_v40) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v41) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v35) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v34) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v36) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v38) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v39) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v42) S4096x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x128x128x256 : Shape := ⟨4, ![8, 128, 128, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S8x128x128x128 : Shape := ⟨4, ![8, 128, 128, 128]⟩
abbrev S1x1x1x128 : Shape := ⟨4, ![1, 1, 1, 128]⟩
abbrev S_ : Shape := ⟨0, ![]⟩
abbrev S8x128x128x1 : Shape := ⟨4, ![8, 128, 128, 1]⟩
abbrev S1x1x1x1 : Shape := ⟨4, ![1, 1, 1, 1]⟩

abbrev nBuf : Space → Nat
  | .hbm => 85
  | .vmem => 0
  | .smem => 0
  | _ => 0

abbrev bufTy : (tb : Table) → Fin (tcTables nBuf tb) → BufTy
  | .hbm, ⟨0, _⟩ => ⟨S8x128x128x256, .f32⟩
  | .hbm, ⟨1, _⟩ => ⟨S8x128x128x256, .f32⟩
  | .hbm, ⟨2, _⟩ => ⟨S256x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128x1, .f32⟩
  | .hbm, ⟨15, _⟩ => ⟨S1, .f32⟩
  | .hbm, ⟨16, _⟩ => ⟨S1, .f32⟩
  | .hbm, ⟨17, _⟩ => ⟨S1, .f32⟩
  | .hbm, ⟨18, _⟩ => ⟨S1, .f32⟩
  | .hbm, ⟨19, _⟩ => ⟨S1, .f32⟩
  | .hbm, ⟨20, _⟩ => ⟨S8x128x128x128, .f32⟩
  | .hbm, ⟨21, _⟩ => ⟨S1x1x1x128, .f32⟩
  | .hbm, ⟨22, _⟩ => ⟨S8x128x128x128, .f32⟩
  | .hbm, ⟨23, _⟩ => ⟨S8x128x128x128, .f32⟩
  | .hbm, ⟨24, _⟩ => ⟨S_, .f32⟩
  | .hbm, ⟨25, _⟩ => ⟨S128, .f32⟩
  | .hbm, ⟨26, _⟩ => ⟨S128, .f32⟩
  | .hbm, ⟨27, _⟩ => ⟨S128, .f32⟩
  | .hbm, ⟨28, _⟩ => ⟨S128, .f32⟩
  | .hbm, ⟨29, _⟩ => ⟨S1x1x1x128, .f32⟩
  | .hbm, ⟨30, _⟩ => ⟨S8x128x128x128, .f32⟩
  | .hbm, ⟨31, _⟩ => ⟨S8x128x128x128, .f32⟩
  | .hbm, ⟨32, _⟩ => ⟨S128, .f32⟩
  | .hbm, ⟨33, _⟩ => ⟨S128, .f32⟩
  | .hbm, ⟨34, _⟩ => ⟨S1x1x1x128, .f32⟩
  | .hbm, ⟨35, _⟩ => ⟨S8x128x128x128, .f32⟩
  | .hbm, ⟨36, _⟩ => ⟨S8x128x128x128, .f32⟩
  | .hbm, ⟨37, _⟩ => ⟨S8x128x128x128, .f32⟩
  | .hbm, ⟨38, _⟩ => ⟨S1x1x1x128, .f32⟩
  | .hbm, ⟨39, _⟩ => ⟨S8x128x128x128, .f32⟩
  | .hbm, ⟨40, _⟩ => ⟨S8x128x128x128, .f32⟩
  | .hbm, ⟨41, _⟩ => ⟨S_, .f32⟩
  | .hbm, ⟨42, _⟩ => ⟨S128, .f32⟩
  | .hbm, ⟨43, _⟩ => ⟨S128, .f32⟩
  | .hbm, ⟨44, _⟩ => ⟨S128, .f32⟩
  | .hbm, ⟨45, _⟩ => ⟨S128, .f32⟩
  | .hbm, ⟨46, _⟩ => ⟨S1x1x1x128, .f32⟩
  | .hbm, ⟨47, _⟩ => ⟨S8x128x128x128, .f32⟩
  | .hbm, ⟨48, _⟩ => ⟨S8x128x128x128, .f32⟩
  | .hbm, ⟨49, _⟩ => ⟨S128, .f32⟩
  | .hbm, ⟨50, _⟩ => ⟨S128, .f32⟩
  | .hbm, ⟨51, _⟩ => ⟨S1x1x1x128, .f32⟩
  | .hbm, ⟨52, _⟩ => ⟨S8x128x128x128, .f32⟩
  | .hbm, ⟨53, _⟩ => ⟨S8x128x128x128, .f32⟩
  | .hbm, ⟨54, _⟩ => ⟨S8x128x128x128, .f32⟩
  | .hbm, ⟨55, _⟩ => ⟨S_, .f32⟩
  | .hbm, ⟨56, _⟩ => ⟨S8x128x128x128, .f32⟩
  | .hbm, ⟨57, _⟩ => ⟨S8x128x128x128, .f32⟩
  | .hbm, ⟨58, _⟩ => ⟨S8x128x128x1, .f32⟩
  | .hbm, ⟨59, _⟩ => ⟨S1x1x1x1, .f32⟩
  | .hbm, ⟨60, _⟩ => ⟨S8x128x128x1, .f32⟩
  | .hbm, ⟨61, _⟩ => ⟨S8x128x128x1, .f32⟩
  | .hbm, ⟨62, _⟩ => ⟨S_, .f32⟩
  | .hbm, ⟨63, _⟩ => ⟨S1, .f32⟩
  | .hbm, ⟨64, _⟩ => ⟨S1, .f32⟩
  | .hbm, ⟨65, _⟩ => ⟨S1, .f32⟩
  | .hbm, ⟨66, _⟩ => ⟨S1, .f32⟩
  | .hbm, ⟨67, _⟩ => ⟨S1x1x1x1, .f32⟩
  | .hbm, ⟨68, _⟩ => ⟨S8x128x128x1, .f32⟩
  | .hbm, ⟨69, _⟩ => ⟨S8x128x128x1, .f32⟩
  | .hbm, ⟨70, _⟩ => ⟨S1, .f32⟩
  | .hbm, ⟨71, _⟩ => ⟨S1, .f32⟩
  | .hbm, ⟨72, _⟩ => ⟨S1x1x1x1, .f32⟩
  | .hbm, ⟨73, _⟩ => ⟨S8x128x128x1, .f32⟩
  | .hbm, ⟨74, _⟩ => ⟨S8x128x128x1, .f32⟩
  | .hbm, ⟨75, _⟩ => ⟨S8x128x128x1, .f32⟩
  | .hbm, ⟨76, _⟩ => ⟨S8x128x128x1, .f32⟩
  | .hbm, ⟨77, _⟩ => ⟨S_, .f32⟩
  | .hbm, ⟨78, _⟩ => ⟨S8x128x128x1, .f32⟩
  | .hbm, ⟨79, _⟩ => ⟨S8x128x128x1, .f32⟩
  | .hbm, ⟨80, _⟩ => ⟨S_, .f32⟩
  | .hbm, ⟨81, _⟩ => ⟨S8x128x128x1, .f32⟩
  | .hbm, ⟨82, _⟩ => ⟨S8x128x128x1, .f32⟩
  | .hbm, ⟨83, _⟩ => ⟨S8x128x128x128, .f32⟩
  | .hbm, ⟨84, _⟩ => ⟨S8x128x128x128, .f32⟩
  | _, _ => ⟨S8x128x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_0 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_call0_cst : Ref sig .tc := ⟨.hbm, 55, rfl⟩
abbrev main_call0_v0 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_1 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_2 : Ref sig .tc := ⟨.hbm, 77, rfl⟩
abbrev main_v52 : Ref sig .tc := ⟨.hbm, 78, rfl⟩
abbrev main_v53 : Ref sig .tc := ⟨.hbm, 79, rfl⟩
abbrev main_cst_3 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩

abbrev nD : Nat := 1
abbrev τ : Topo := Topo.v7x

variable {F : FTy → Type} [FloatOps F]

class Facts₀ : Prop where
  bcast_S128_S1x1x1x128_3 : S128.BroadcastsInDim S1x1x1x128 (![3] : Fin 1 → Fin S1x1x1x128.rank)
  bcast_S1x1x1x128_S8x128x128x128_0_1_2_3 : S1x1x1x128.BroadcastsInDim S8x128x128x128 (![0, 1, 2, 3] : Fin 4 → Fin S8x128x128x128.rank)
  bcast_S_S128 : S_.BroadcastsInDim S128 (![] : Fin 0 → Fin S128.rank)
  bcast_S_S8x128x128x128 : S_.BroadcastsInDim S8x128x128x128 (![] : Fin 0 → Fin S8x128x128x128.rank)
  bcast_S1_S1x1x1x1_3 : S1.BroadcastsInDim S1x1x1x1 (![3] : Fin 1 → Fin S1x1x1x1.rank)
  bcast_S1x1x1x1_S8x128x128x1_0_1_2_3 : S1x1x1x1.BroadcastsInDim S8x128x128x1 (![0, 1, 2, 3] : Fin 4 → Fin S8x128x128x1.rank)
  bcast_S_S1 : S_.BroadcastsInDim S1 (![] : Fin 0 → Fin S1.rank)
  bcast_S_S8x128x128x1 : S_.BroadcastsInDim S8x128x128x1 (![] : Fin 0 → Fin S8x128x128x1.rank)
  bcast_S8x128x128x1_S8x128x128x128_0_1_2_3 : S8x128x128x1.BroadcastsInDim S8x128x128x128 (![0, 1, 2, 3] : Fin 4 → Fin S8x128x128x128.rank)
  dot_S8x128x128x256_S256x128_S8x128x128x128_3_0_012_1_n_n_wf : DotDims.WF S8x128x128x256 S256x128 S8x128x128x128 [3] [0] [0, 1, 2] [1] [] []
  dot_S8x128x128x128_S128x1_S8x128x128x1_3_0_012_1_n_n_wf : DotDims.WF S8x128x128x128 S128x1 S8x128x128x1 [3] [0] [0, 1, 2] [1] [] []

variable [Facts₀]

def dot_S8x128x128x256_S256x128_S8x128x128x128_3_0_012_1_n_n : DotDims S8x128x128x256 S256x128 S8x128x128x128 where
  lhsContracting := [3]
  rhsContracting := [0]
  lhsNonContracting := [0, 1, 2]
  rhsNonContracting := [1]
  lhsBatch := []
  rhsBatch := []
  wf := dot_S8x128x128x256_S256x128_S8x128x128x128_3_0_012_1_n_n_wf
def dot_S8x128x128x128_S128x1_S8x128x128x1_3_0_012_1_n_n : DotDims S8x128x128x128 S128x1 S8x128x128x1 where
  lhsContracting := [3]
  rhsContracting := [0]
  lhsNonContracting := [0, 1, 2]
  rhsNonContracting := [1]
  lhsBatch := []
  rhsBatch := []
  wf := dot_S8x128x128x128_S128x1_S8x128x128x1_3_0_012_1_n_n_wf

class Facts : Prop extends Facts₀ where

variable [Facts]
-- ==== Proof.FoldLaw.lean ====
/-
  Folding an inference-mode batch normalisation into the linear layer before it, on the extended reals.

  A normalised linear layer computes, per output feature, `((∑ k, u k · W k) + b) · s + (β − μ · s)` with the
  scale `s = γ · rsqrt (v + ε)`.  The folded layer scales the weights and the bias first and computes
  `(∑ k, u k · (W k · s)) + ((b · s + β) − μ · s)`.  Over the reals these are one number: `· s` distributes
  over the sum and over `+ b`, and the additions reassociate.  On the extended reals distributivity is lost at the
  infinities, so the law is stated for real operands, and `s` is real exactly when the variance is non-negative
  (then `v + ε > 0` and `rsqrt` is the reciprocal of a positive square root).  Both forms are also shown to be
  the coercion of ONE real number, so a layer built on their outputs again has real operands.
-/
import Idealize.ShloMosaic.PureOps.Ideal
import Idealize.ShloMosaic.PureOps.Ideal.Laws

noncomputable section

namespace Cert.Gate

open Idealize.ShloMosaic

/-- The coercion of a finite real sum is the sum of the coercions. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The normalisation's `ε`, the single-precision word nearest `1e-3`, is the positive dyadic `8589935 / 2^33`. -/
theorem eps_val : Ideal.ofBits .f32 0x3A83126F#32 = ((8589935 / 8589934592 : ℝ) : EReal) := by
  simp [Ideal.ofBits, Ideal.ieee, -EReal.coe_mul]; norm_num

/-- The word `1.0` denotes `1`. -/
theorem one_val : Ideal.ofBits .f32 0x3F800000#32 = 1 := by
  simp [Ideal.ofBits, Ideal.ieee, -EReal.coe_mul]; norm_num

/-- The real scale of a normalisation with multiplier `γ` and variance `v`. -/
def scaleR (γ v : ℝ) : ℝ := γ * (Real.sqrt (v + 8589935 / 8589934592))⁻¹

/-- With a non-negative variance the scale `γ · rsqrt (v + ε)` is a real number. -/
theorem scale_coe (γ v : ℝ) (hv : 0 ≤ v) :
    (γ : EReal) * Ideal.rsqrt ((v : EReal) + Ideal.ofBits .f32 0x3A83126F#32) = ((scaleR γ v : ℝ) : EReal) := by
  have h : 0 < v + 8589935 / 8589934592 := by positivity
  rw [eps_val, ← EReal.coe_add, Ideal.rsqrt_coe, if_neg (not_lt.mpr h.le), if_neg h.ne', ← EReal.coe_mul]
  rfl

/-- The real value of a normalised linear layer's output feature. -/
def affineR {ι : Type*} [Fintype ι] (u W : ι → ℝ) (s b β μ : ℝ) : ℝ :=
  ((∑ k, u k * W k) + b) * s + (β - μ * s)

/-- The folded form — weights and bias scaled first — is that real number. -/
theorem affine_folded {ι : Type*} [Fintype ι] (u W : ι → ℝ) (s b β μ : ℝ) :
    (∑ k, (u k : EReal) * ((W k : EReal) * (s : EReal))) + (((b : EReal) * s + β) - (μ : EReal) * s)
      = ((affineR u W s b β μ : ℝ) : EReal) := by
  simp only [← EReal.coe_mul, ← coe_sum, ← EReal.coe_add, ← EReal.coe_sub]
  have h : ∑ k, u k * (W k * s) = (∑ k, u k * W k) * s := by
    rw [Finset.sum_mul]; exact Finset.sum_congr rfl fun k _ => by ring
  rw [h]; unfold affineR; congr 1; ring

/-- The plain form — normalise after the linear layer — is the same real number. -/
theorem affine_plain {ι : Type*} [Fintype ι] (u W : ι → ℝ) (s b β μ : ℝ) :
    ((∑ k, (u k : EReal) * (W k : EReal)) + b) * s + ((β : EReal) - (μ : EReal) * s)
      = ((affineR u W s b β μ : ℝ) : EReal) := by
  simp only [← EReal.coe_mul, ← coe_sum, ← EReal.coe_add, ← EReal.coe_sub]
  rfl

/-- The rectifier of a sum of two reals, against the zero word, is real. -/
theorem relu_coe (x y : ℝ) :
    max ((x : EReal) + (y : EReal)) (Ideal.ofBits .f32 0x00000000#32) = ((max (x + y) 0 : ℝ) : EReal) := by
  rw [Ideal.ofBits_zero_f32, ← EReal.coe_add, ← EReal.coe_zero]
  exact (EReal.coe_strictMono.monotone.map_max).symm

/-- The logistic function is `1 / (1 + exp (−x))` with the constant spelt as the word `1.0`. -/
theorem logistic_eq (x : EReal) :
    Ideal.logistic x = Ideal.div (Ideal.ofBits .f32 0x3F800000#32) (Ideal.ofBits .f32 0x3F800000#32 + Ideal.exp (-x)) := by
  rw [one_val]; rfl

end Cert.Gate

end
-- ==== Proof.GateSpec.lean ====
/-
  The attention gate of one pixel, in its two arrangements, and that they are one number.

  A pixel has a row `ug` of the gating signal and a row `ux` of the skip signal (256 channels each).  Each is sent
  through a 1×1 convolution (a 256 → 128 linear layer) and an inference-mode batch normalisation; the two results
  are added and rectified; a 128 → 1 linear layer with its own normalisation and a logistic function give the
  attention coefficient `ψ`; the output feature `q` is the normalised skip feature `q` times `ψ`.

  `gateRef` normalises AFTER each linear layer: `(lin u W b) · s + (β − μ · s)`, `s = γ · rsqrt (v + ε)`.
  `gateFolded` is the same network with no normalisation at all, to be applied to weights and biases that were
  scaled beforehand (`W · s`, `(b · s + β) − μ · s`).  `gate_fold`: on real operands with non-negative variances the
  folded network at the scaled parameters is the reference network (the law of FoldLaw.lean at each of the three
  layers; the rectifier of reals is real, so the third layer again has real operands).
-/
import proofs.«155180_j46213848105841_1_alg».proof.Proof.FoldLaw

noncomputable section

namespace Cert.Gate

open Idealize.ShloMosaic

/-- A linear layer's output feature: `(∑ k, u k · W k) + b`. -/
def lin {ι : Type*} [Fintype ι] (u W : ι → EReal) (b : EReal) : EReal := (∑ k, u k * W k) + b

/-- A normalisation's scale `γ · rsqrt (v + ε)`. -/
def scale (γ v : EReal) : EReal := γ * Ideal.rsqrt (v + Ideal.ofBits .f32 0x3A83126F#32)

/-- The gate with NO normalisation: two linear layers added and rectified, a third one through the logistic function,
    times the skip branch's feature. -/
def gateFolded (ug ux : Fin 256 → EReal) (Wg Wx : Fin 256 → Fin 128 → EReal) (bg bx : Fin 128 → EReal)
    (wp : Fin 128 → EReal) (bp : EReal) (q : Fin 128) : EReal :=
  lin ux (fun k => Wx k q) (bx q) *
    Ideal.logistic (lin (fun f => max (lin ug (fun k => Wg k f) (bg f) + lin ux (fun k => Wx k f) (bx f))
      (Ideal.ofBits .f32 0x00000000#32)) wp bp)

/-- The gate with each linear layer followed by its normalisation. -/
def gateRef (ug ux : Fin 256 → EReal) (Wg Wx : Fin 256 → Fin 128 → EReal)
    (bg γg βg μg vg bx γx βx μx vx : Fin 128 → EReal) (Wp : Fin 128 → EReal) (bp γp βp μp vp : EReal) (q : Fin 128) : EReal :=
  (lin ux (fun k => Wx k q) (bx q) * scale (γx q) (vx q) + (βx q - μx q * scale (γx q) (vx q))) *
    Ideal.div (Ideal.ofBits .f32 0x3F800000#32) (Ideal.ofBits .f32 0x3F800000#32 + Ideal.exp (-(
      lin (fun f => max
          ((lin ug (fun k => Wg k f) (bg f) * scale (γg f) (vg f) + (βg f - μg f * scale (γg f) (vg f)))
            + (lin ux (fun k => Wx k f) (bx f) * scale (γx f) (vx f) + (βx f - μx f * scale (γx f) (vx f))))
          (Ideal.ofBits .f32 0x00000000#32)) Wp bp * scale γp vp + (βp - μp * scale γp vp))))

/-- One layer, folded, on real operands. -/
theorem layer_folded {ι : Type*} [Fintype ι] (u W : ι → ℝ) (b γ β μ v : ℝ) (hv : 0 ≤ v) :
    lin (fun k => (u k : EReal)) (fun k => (W k : EReal) * scale γ v) (((b : EReal) * scale γ v + β) - (μ : EReal) * scale γ v)
      = ((affineR u W (scaleR γ v) b β μ : ℝ) : EReal) := by
  unfold lin scale
  rw [scale_coe γ v hv]
  exact affine_folded u W _ b β μ

/-- One layer followed by its normalisation, on real operands. -/
theorem layer_plain {ι : Type*} [Fintype ι] (u W : ι → ℝ) (b γ β μ v : ℝ) (hv : 0 ≤ v) :
    lin (fun k => (u k : EReal)) (fun k => (W k : EReal)) b * scale γ v + ((β : EReal) - (μ : EReal) * scale γ v)
      = ((affineR u W (scaleR γ v) b β μ : ℝ) : EReal) := by
  unfold lin scale
  rw [scale_coe γ v hv]
  exact affine_plain u W _ b β μ

/-- THE LAW: the folded gate at the scaled weights and biases is the reference gate, for real operands and
    non-negative variances. -/
theorem gate_fold (ug ux : Fin 256 → ℝ) (Wg Wx : Fin 256 → Fin 128 → ℝ)
    (bg γg βg μg vg bx γx βx μx vx : Fin 128 → ℝ) (Wp : Fin 128 → ℝ) (bp γp βp μp vp : ℝ)
    (hg : ∀ f, 0 ≤ vg f) (hx : ∀ f, 0 ≤ vx f) (hp : 0 ≤ vp) (q : Fin 128) :
    gateFolded (fun k => (ug k : EReal)) (fun k => (ux k : EReal))
        (fun k f => (Wg k f : EReal) * scale (γg f) (vg f)) (fun k f => (Wx k f : EReal) * scale (γx f) (vx f))
        (fun f => ((bg f : EReal) * scale (γg f) (vg f) + βg f) - (μg f : EReal) * scale (γg f) (vg f))
        (fun f => ((bx f : EReal) * scale (γx f) (vx f) + βx f) - (μx f : EReal) * scale (γx f) (vx f))
        (fun f => (Wp f : EReal) * scale γp vp) (((bp : EReal) * scale γp vp + βp) - (μp : EReal) * scale γp vp) q
      = gateRef (fun k => (ug k : EReal)) (fun k => (ux k : EReal)) (fun k f => (Wg k f : EReal)) (fun k f => (Wx k f : EReal))
        (fun f => (bg f : EReal)) (fun f => (γg f : EReal)) (fun f => (βg f : EReal)) (fun f => (μg f : EReal)) (fun f => (vg f : EReal))
        (fun f => (bx f : EReal)) (fun f => (γx f : EReal)) (fun f => (βx f : EReal)) (fun f => (μx f : EReal)) (fun f => (vx f : EReal))
        (fun f => (Wp f : EReal)) bp γp βp μp vp q := by
  unfold gateFolded gateRef
  have eg : ∀ f, lin (fun k => (ug k : EReal)) (fun k => (Wg k f : EReal) * scale (γg f) (vg f))
      (((bg f : EReal) * scale (γg f) (vg f) + βg f) - (μg f : EReal) * scale (γg f) (vg f))
      = lin (fun k => (ug k : EReal)) (fun k => (Wg k f : EReal)) (bg f) * scale (γg f) (vg f)
        + ((βg f : EReal) - (μg f : EReal) * scale (γg f) (vg f)) := fun f =>
    (layer_folded ug (fun k => Wg k f) _ _ _ _ _ (hg f)).trans (layer_plain ug (fun k => Wg k f) _ _ _ _ _ (hg f)).symm
  have ex : ∀ f, lin (fun k => (ux k : EReal)) (fun k => (Wx k f : EReal) * scale (γx f) (vx f))
      (((bx f : EReal) * scale (γx f) (vx f) + βx f) - (μx f : EReal) * scale (γx f) (vx f))
      = lin (fun k => (ux k : EReal)) (fun k => (Wx k f : EReal)) (bx f) * scale (γx f) (vx f)
        + ((βx f : EReal) - (μx f : EReal) * scale (γx f) (vx f)) := fun f =>
    (layer_folded ux (fun k => Wx k f) _ _ _ _ _ (hx f)).trans (layer_plain ux (fun k => Wx k f) _ _ _ _ _ (hx f)).symm
  simp only [eg, ex]
  -- the rectified sum is real, feature by feature
  have es : ∀ f, max ((lin (fun k => (ug k : EReal)) (fun k => (Wg k f : EReal)) (bg f) * scale (γg f) (vg f)
        + ((βg f : EReal) - (μg f : EReal) * scale (γg f) (vg f)))
      + (lin (fun k => (ux k : EReal)) (fun k => (Wx k f : EReal)) (bx f) * scale (γx f) (vx f)
        + ((βx f : EReal) - (μx f : EReal) * scale (γx f) (vx f)))) (Ideal.ofBits .f32 0x00000000#32)
      = ((max (affineR ug (fun k => Wg k f) (scaleR (γg f) (vg f)) (bg f) (βg f) (μg f)
          + affineR ux (fun k => Wx k f) (scaleR (γx f) (vx f)) (bx f) (βx f) (μx f)) 0 : ℝ) : EReal) := fun f => by
    rw [layer_plain ug (fun k => Wg k f) _ _ _ _ _ (hg f), layer_plain ux (fun k => Wx k f) _ _ _ _ _ (hx f)]
    exact relu_coe _ _
  simp only [es]
  rw [layer_folded _ Wp bp γp βp μp vp hp, ← layer_plain _ Wp bp γp βp μp vp hp, logistic_eq]

/-- THE LAW on extended-real operands that are neither infinity, with non-negative variances. -/
theorem gate_fold_of_finite (ug ux : Fin 256 → EReal) (Wg Wx : Fin 256 → Fin 128 → EReal)
    (bg γg βg μg vg bx γx βx μx vx : Fin 128 → EReal) (Wp : Fin 128 → EReal) (bp γp βp μp vp : EReal)
    (hug : ∀ k, ug k ≠ ⊤ ∧ ug k ≠ ⊥) (hux : ∀ k, ux k ≠ ⊤ ∧ ux k ≠ ⊥)
    (hWg : ∀ k f, Wg k f ≠ ⊤ ∧ Wg k f ≠ ⊥) (hWx : ∀ k f, Wx k f ≠ ⊤ ∧ Wx k f ≠ ⊥)
    (hbg : ∀ f, bg f ≠ ⊤ ∧ bg f ≠ ⊥) (hγg : ∀ f, γg f ≠ ⊤ ∧ γg f ≠ ⊥) (hβg : ∀ f, βg f ≠ ⊤ ∧ βg f ≠ ⊥)
    (hμg : ∀ f, μg f ≠ ⊤ ∧ μg f ≠ ⊥) (hvg : ∀ f, vg f ≠ ⊤ ∧ vg f ≠ ⊥)
    (hbx : ∀ f, bx f ≠ ⊤ ∧ bx f ≠ ⊥) (hγx : ∀ f, γx f ≠ ⊤ ∧ γx f ≠ ⊥) (hβx : ∀ f, βx f ≠ ⊤ ∧ βx f ≠ ⊥)
    (hμx : ∀ f, μx f ≠ ⊤ ∧ μx f ≠ ⊥) (hvx : ∀ f, vx f ≠ ⊤ ∧ vx f ≠ ⊥)
    (hWp : ∀ f, Wp f ≠ ⊤ ∧ Wp f ≠ ⊥) (hbp : bp ≠ ⊤ ∧ bp ≠ ⊥) (hγp : γp ≠ ⊤ ∧ γp ≠ ⊥) (hβp : βp ≠ ⊤ ∧ βp ≠ ⊥)
    (hμp : μp ≠ ⊤ ∧ μp ≠ ⊥) (hvp : vp ≠ ⊤ ∧ vp ≠ ⊥)
    (hg : ∀ f, 0 ≤ vg f) (hx : ∀ f, 0 ≤ vx f) (hp : 0 ≤ vp) (q : Fin 128) :
    gateFolded ug ux (fun k f => Wg k f * scale (γg f) (vg f)) (fun k f => Wx k f * scale (γx f) (vx f))
        (fun f => (bg f * scale (γg f) (vg f) + βg f) - μg f * scale (γg f) (vg f))
        (fun f => (bx f * scale (γx f) (vx f) + βx f) - μx f * scale (γx f) (vx f))
        (fun f => Wp f * scale γp vp) ((bp * scale γp vp + βp) - μp * scale γp vp) q
      = gateRef ug ux Wg Wx bg γg βg μg vg bx γx βx μx vx Wp bp γp βp μp vp q := by
  lift ug to Fin 256 → ℝ using hug
  lift ux to Fin 256 → ℝ using hux
  lift Wg to Fin 256 → Fin 128 → ℝ using hWg
  lift Wx to Fin 256 → Fin 128 → ℝ using hWx
  lift bg to Fin 128 → ℝ using hbg
  lift γg to Fin 128 → ℝ using hγg
  lift βg to Fin 128 → ℝ using hβg
  lift μg to Fin 128 → ℝ using hμg
  lift vg to Fin 128 → ℝ using hvg
  lift bx to Fin 128 → ℝ using hbx
  lift γx to Fin 128 → ℝ using hγx
  lift βx to Fin 128 → ℝ using hβx
  lift μx to Fin 128 → ℝ using hμx
  lift vx to Fin 128 → ℝ using hvx
  lift Wp to Fin 128 → ℝ using hWp
  lift bp to ℝ using hbp
  lift γp to ℝ using hγp
  lift βp to ℝ using hβp
  lift μp to ℝ using hμp
  lift vp to ℝ using hvp
  exact gate_fold ug ux Wg Wx bg γg βg μg vg bx γx βx μx vx Wp bp γp βp μp vp
    (fun f => EReal.coe_nonneg.mp (hg f)) (fun f => EReal.coe_nonneg.mp (hx f)) (EReal.coe_nonneg.mp hp) q

end Cert.Gate

end
-- ==== Proof.KernelPayload.lean ====
/-
  The kernel body's arithmetic, read at one element.

  The body holds a block of 4096 pixels: `x0`, `x1` are the blocks of the gating and skip signals (4096 × 256), `x2`, `x4`
  the two weight matrices (256 × 128), `x3`, `x5` their bias rows, `x6` the third layer's weight row and `x7` its bias.
  Its one store writes, at row `p` and feature `q`, the folded gate (GateSpec.lean `gateFolded`) of row `p` of the two
  signal blocks: the two matrix products are sums over the 256 channels, the lane reduction a sum over the 128
  features, the broadcasts repeat a row or a column, the format changes are the identity on the extended reals.
-/
import proofs.«155180_j46213848105841_1_alg».proof.Proof.Gen.KernelIdeal.Skeleton
import proofs.«155180_j46213848105841_1_alg».proof.Proof.GateSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen Cert.Gate

/-- The left operand's index of a product element keeps the element's row; -/
theorem lhs_row (i : S4096x128.Idx) (k : dot_S4096x256_S256x128_S4096x128_1_0_0_1_n_n.contr.Idx) :
    (dot_S4096x256_S256x128_S4096x128_1_0_0_1_n_n.lhsIdx i k 0).val = (i 0).val := by
  unfold DotDims.lhsIdx
  rw [dif_neg (show ¬(0 : Fin S4096x256.rank) ∈ dot_S4096x256_S256x128_S4096x128_1_0_0_1_n_n.lhsBatch by decide),
    dif_pos (show (0 : Fin S4096x256.rank) ∈ dot_S4096x256_S256x128_S4096x128_1_0_0_1_n_n.lhsNonContracting by decide)]
  rfl

/-- the right operand's keeps its column. -/
theorem rhs_col (i : S4096x128.Idx) (k : dot_S4096x256_S256x128_S4096x128_1_0_0_1_n_n.contr.Idx) :
    (dot_S4096x256_S256x128_S4096x128_1_0_0_1_n_n.rhsIdx i k 1).val = (i 1).val := by
  unfold DotDims.rhsIdx
  rw [dif_neg (show ¬(1 : Fin S256x128.rank) ∈ dot_S4096x256_S256x128_S4096x128_1_0_0_1_n_n.rhsBatch by decide),
    dif_pos (show (1 : Fin S256x128.rank) ∈ dot_S4096x256_S256x128_S4096x128_1_0_0_1_n_n.rhsNonContracting by decide)]
  rfl

/-- A block of rows times a weight matrix, into a zero accumulator, at `(p, q)`: the sum over the channels. -/
theorem matmul_at (l : FVec Ideal S4096x256 .bf16) (r : FVec Ideal S256x128 .bf16) (p : Fin 4096) (q : Fin 128) :
    matmul dot_S4096x256_S256x128_S4096x128_1_0_0_1_n_n none l r (constant S4096x128 .f32 0x00000000#32) (ix2 p q)
      = ∑ k : Fin 256, l (ix2 p k) * r (ix2 k q) := by
  refine (Ideal.matmul_constant_zero_apply dot_S4096x256_S256x128_S4096x128_1_0_0_1_n_n none l r (ix2 p q)).trans ?_
  rw [← Equiv.sum_comp (contrEquiv1 dot_S4096x256_S256x128_S4096x128_1_0_0_1_n_n 256 rfl rfl).symm]
  refine Finset.sum_congr rfl fun k _ => ?_
  have hk := contrEquiv1_symm_val dot_S4096x256_S256x128_S4096x128_1_0_0_1_n_n 256 rfl rfl k
  have el : dot_S4096x256_S256x128_S4096x128_1_0_0_1_n_n.lhsIdx (ix2 p q) ((contrEquiv1 dot_S4096x256_S256x128_S4096x128_1_0_0_1_n_n 256 rfl rfl).symm k) = ix2 p k :=
    funext fun a => Fin.ext (by
      match a with
      | ⟨0, _⟩ => exact lhs_row _ _
      | ⟨1, _⟩ => exact (dot_S4096x256_S256x128_S4096x128_1_0_0_1_n_n.lhsIdx_val_of_single rfl _ _).trans hk)
  have er : dot_S4096x256_S256x128_S4096x128_1_0_0_1_n_n.rhsIdx (ix2 p q) ((contrEquiv1 dot_S4096x256_S256x128_S4096x128_1_0_0_1_n_n 256 rfl rfl).symm k) = ix2 k q :=
    funext fun a => Fin.ext (by
      match a with
      | ⟨0, _⟩ => exact (dot_S4096x256_S256x128_S4096x128_1_0_0_1_n_n.rhsIdx_val_of_single rfl _ _).trans hk
      | ⟨1, _⟩ => exact rhs_col _ _)
  rw [el, er]

/-- The lane reduction of a 4096 × 128 block at row `p`: the sum over the 128 features. -/
theorem rowsum_at (src : FVec Ideal S4096x128 .f32) (hacc : (0x00000000#32 : BitVec 32) = 0x00000000#32) (p : Fin 4096) :
    multiReduction .add [1] S4096 src 0x00000000#32 reduces_S4096x128_S4096 (.inl rfl) hacc (ix1 p)
      = ∑ f : Fin 128, src (ix2 p f) := by
  refine (Ideal.multiReduction_add_single src 0x00000000#32 reduces_S4096x128_S4096 (.inl rfl) hacc (ix1 p)).trans ?_
  refine Finset.sum_congr rfl fun f _ => congrArg src (funext fun a => Fin.ext ?_)
  match a with
  | ⟨0, _⟩ => rfl
  | ⟨1, _⟩ => rfl

/-- A column `[4096]` cast to `[4096, 1]` reads the column at the row. -/
theorem col_cast_at (v : FVec Ideal S4096 .f32) (p : Fin 4096) (u : Fin 1) :
    shapeCast S4096x1 v shapeCasts_S4096_S4096x1 (ix2 p u) = v (ix1 p) :=
  shapeCast_apply v _ _ _ (by
    have hu : u.val = 0 := by omega
    rw [Shape.rowMajor_val_two, Shape.rowMajor_val_one]
    show p.val = p.val * 1 + u.val
    omega)

/-- A column `[4096, 1]` broadcast along the features reads the column at the row. -/
theorem col_bcast_at (v : FVec Ideal S4096x1 .f32) (p : Fin 4096) (q : Fin 128) :
    broadcastTo S4096x128 v broadcasts_S4096x1_S4096x128 (ix2 p q) = v (ix2 p (0 : Fin 1)) := by
  refine broadcastTo_apply v _ (ix2 p q) (ix2 p (0 : Fin 1)) fun ax => ?_
  match ax with
  | ⟨0, _⟩ => rfl
  | ⟨1, _⟩ => rfl

/-- The scalar taken out of the 1 × 1 bias block is its one element. -/
theorem bias_at (x7 : Vec Ideal S1x1 .f32) :
    extractAt ![0, 0] x7 inpos_S1x1_p0_0 = x7 (ix2 (0 : Fin 1) (0 : Fin 1)) :=
  congrArg x7 (funext fun a => Fin.ext (by
    match a with
    | ⟨0, _⟩ => rfl
    | ⟨1, _⟩ => rfl))

/-- THE BODY'S STORE at row `p`, feature `q`: the folded gate of row `p` of the two signal blocks. -/
theorem pay_at (x0 x1 : Vec Ideal S4096x256 .f32) (x2 : Vec Ideal S256x128 .bf16) (x3 : Vec Ideal S1x128 .f32)
    (x4 : Vec Ideal S256x128 .bf16) (x5 x6 : Vec Ideal S1x128 .f32) (x7 : Vec Ideal S1x1 .f32) (p : Fin 4096) (q : Fin 128) :
    k0_pay1 x0 x1 x2 x3 x4 x5 x6 x7 (ix2 p q)
      = gateFolded (fun k => x0 (ix2 p k)) (fun k => x1 (ix2 p k)) (fun k f => x2 (ix2 k f)) (fun k f => x4 (ix2 k f))
          (fun f => x3 (ix2 (0 : Fin 1) f)) (fun f => x5 (ix2 (0 : Fin 1) f)) (fun f => x6 (ix2 (0 : Fin 1) f))
          (x7 (ix2 (0 : Fin 1) (0 : Fin 1))) q := by
  unfold k0_pay1 gateFolded lin
  simp only [shapeCast_self]
  rw [mulf_apply, addf_apply, matmul_at, broadcastTo_1b_ab_apply, col_bcast_at]
  show _ * Ideal.logistic (shapeCast S4096x1 _ shapeCasts_S4096_S4096x1 (ix2 p (0 : Fin 1))
      + extractAt ![0, 0] x7 inpos_S1x1_p0_0) = _
  rw [col_cast_at, rowsum_at, bias_at]
  simp only [mulf_apply, maximumf_apply, addf_apply, matmul_at, broadcastTo_1b_ab_apply, truncf_apply, broadcast_apply]
  rfl

end Cert.KernelIdeal.Pay

end
-- ==== Proof.KernelArray.lean ====
/-
  From blocks to the whole output array.

  The grid has 32 points; point `t` stages rows `4096·t … 4096·t + 4095` of the two signal arrays, the whole of the six
  parameter arrays, and writes back rows `4096·t …` of the output.  So what point `t` writes is the restriction to its
  block of ONE function of the staged arrays — at row `r`, feature `q`, the folded gate of row `r` of the two signals —
  and the 32 blocks tile the output's 131072 rows (row `r` lies in block `r / 4096`): the output array after the region
  is that function.
-/
import proofs.«155180_j46213848105841_1_alg».proof.Proof.Gen.KernelIdeal.Frame
import proofs.«155180_j46213848105841_1_alg».proof.Proof.KernelPayload
import Idealize.ShloMosaic.Lib.Pipeline.Value

set_option maxRecDepth 16384

noncomputable section

namespace Cert.KernelIdeal.Arr

open Cert.KernelIdeal Cert.KernelIdeal.Gen Idealize.ShloMosaic Idealize.ShloMosaic.TcCoe Idealize.SL.Sem
open Idealize.ShloMosaic.ValueIdx Cert.Gate
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The output array as one function of the eight staged arrays: at row `r`, feature `q`, the folded gate of row `r`. -/
def gateArray (A0 A1 : S131072x256.Idx → EReal) (A2 : S256x128.Idx → EReal) (A3 : S1x128.Idx → EReal)
    (A4 : S256x128.Idx → EReal) (A5 A6 : S1x128.Idx → EReal) (A7 : S1x1.Idx → EReal) : S131072x128.Idx → EReal :=
  fun i => gateFolded (fun k => A0 (ix2 (⟨(i 0).val, (i 0).isLt⟩ : Fin 131072) k))
    (fun k => A1 (ix2 (⟨(i 0).val, (i 0).isLt⟩ : Fin 131072) k))
    (fun k f => A2 (ix2 k f)) (fun k f => A4 (ix2 k f)) (fun f => A3 (ix2 (0 : Fin 1) f)) (fun f => A5 (ix2 (0 : Fin 1) f))
    (fun f => A6 (ix2 (0 : Fin 1) f)) (A7 (ix2 (0 : Fin 1) (0 : Fin 1))) (⟨(i 1).val, (i 1).isLt⟩ : Fin 128)

/-- `gateArray` at row `r`, feature `q`. -/
theorem gateArray_at (A0 A1 : S131072x256.Idx → EReal) (A2 : S256x128.Idx → EReal) (A3 : S1x128.Idx → EReal)
    (A4 : S256x128.Idx → EReal) (A5 A6 : S1x128.Idx → EReal) (A7 : S1x1.Idx → EReal) (r : Fin 131072) (q : Fin 128) :
    gateArray A0 A1 A2 A3 A4 A5 A6 A7 (ix2 r q)
      = gateFolded (fun k => A0 (ix2 r k)) (fun k => A1 (ix2 r k)) (fun k f => A2 (ix2 k f)) (fun k f => A4 (ix2 k f))
          (fun f => A3 (ix2 (0 : Fin 1) f)) (fun f => A5 (ix2 (0 : Fin 1) f)) (fun f => A6 (ix2 (0 : Fin 1) f))
          (A7 (ix2 (0 : Fin 1) (0 : Fin 1))) q := rfl

/-- The index maps, decided over the 32 points: the signals' and the output's block row is the point, every other
    block index is zero. -/
theorem block_index : ∀ t : Fin cfg0.N,
    win0_8.index t (0 : Fin 2) = t.val ∧ win0_8.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Every block row of the output is some point's. -/
theorem block_onto : ∀ q0 : Fin 32, ∃ t : Fin cfg0.N, win0_8.index t = ![q0.val, 0] :=
  (by decide +kernel : ∀ q0 : Fin 32, ∃ t : Fin grid0.N, win0_8.index t = ![q0.val, 0])

/-- ONE BLOCK, over plain arrays: if `b0`, `b1` are rows `4096·R …` of `A0`, `A1` and `b2 … b7` are `A2 … A7`, the body's
    store at `(p, q)` is `gateArray` at row `4096·R + p`, feature `q`. -/
theorem block_gate (A0 A1 : S131072x256.Idx → EReal) (A2 : S256x128.Idx → EReal) (A3 : S1x128.Idx → EReal)
    (A4 : S256x128.Idx → EReal) (A5 A6 : S1x128.Idx → EReal) (A7 : S1x1.Idx → EReal)
    (b0 b1 : Vec Ideal S4096x256 .f32) (b2 : Vec Ideal S256x128 .bf16) (b3 : Vec Ideal S1x128 .f32)
    (b4 : Vec Ideal S256x128 .bf16) (b5 b6 : Vec Ideal S1x128 .f32) (b7 : Vec Ideal S1x1 .f32)
    (R : Nat) (hR : R < 32)
    (h0 : ∀ (p : Fin 4096) (k : Fin 256), b0 (ix2 p k) = A0 (ix2 (⟨R * 4096 + p.val, by omega⟩ : Fin 131072) k))
    (h1 : ∀ (p : Fin 4096) (k : Fin 256), b1 (ix2 p k) = A1 (ix2 (⟨R * 4096 + p.val, by omega⟩ : Fin 131072) k))
    (h2 : ∀ (k : Fin 256) (f : Fin 128), b2 (ix2 k f) = A2 (ix2 k f))
    (h3 : ∀ f : Fin 128, b3 (ix2 (0 : Fin 1) f) = A3 (ix2 (0 : Fin 1) f))
    (h4 : ∀ (k : Fin 256) (f : Fin 128), b4 (ix2 k f) = A4 (ix2 k f))
    (h5 : ∀ f : Fin 128, b5 (ix2 (0 : Fin 1) f) = A5 (ix2 (0 : Fin 1) f))
    (h6 : ∀ f : Fin 128, b6 (ix2 (0 : Fin 1) f) = A6 (ix2 (0 : Fin 1) f))
    (h7 : b7 (ix2 (0 : Fin 1) (0 : Fin 1)) = A7 (ix2 (0 : Fin 1) (0 : Fin 1)))
    (p : Fin 4096) (q : Fin 128) (i : S131072x128.Idx) (hi0 : (i 0).val = R * 4096 + p.val) (hi1 : (i 1).val = q.val) :
    k0_pay1 b0 b1 b2 b3 b4 b5 b6 b7 (ix2 p q) = gateArray A0 A1 A2 A3 A4 A5 A6 A7 i := by
  rw [Pay.pay_at]
  unfold gateArray
  have er : (⟨(i 0).val, (i 0).isLt⟩ : Fin 131072) = ⟨R * 4096 + p.val, by omega⟩ := Fin.ext hi0
  have eq : (⟨(i 1).val, (i 1).isLt⟩ : Fin 128) = q := Fin.ext hi1
  rw [er, eq]
  simp only [h0, h1, h2, h3, h4, h5, h6, h7]

/-! ## Each input window's block at a point, read off its array

A block's coordinate is (block index) × (block size) + (coordinate inside the block); the decided index maps make it
row `4096·t + p` for the two signals and the coordinate itself for the parameters. -/

theorem read0 (c : Dev nD) (t : Fin cfg0.N) (ht : t.val < 32) (p : Fin 4096) (k : Fin 256) :
    iblk m c 0 t (ix2 p k) = V m c main_v40 (ix2 (⟨t.val * 4096 + p.val, by omega⟩ : Fin 131072) k) := by
  obtain ⟨e80, e81, e00, e01, e10, e11, e20, e21, e30, e31, e40, e41, e50, e51, e60, e61, e70, e71⟩ := block_index t
  show V m c (Pipeline.arrRef spec0 0) (((cfg0.win 0).blk t).view.emb (ix2 p k)) = _
  refine congrArg (V m c main_v40) (funext fun a => Fin.ext ?_)
  match a with
  | ⟨0, _⟩ => show win0_0.index t (0 : Fin 2) * 4096 + 1 * p.val = t.val * 4096 + p.val; omega
  | ⟨1, _⟩ => show win0_0.index t (1 : Fin 2) * 256 + 1 * k.val = k.val; omega

theorem read1 (c : Dev nD) (t : Fin cfg0.N) (ht : t.val < 32) (p : Fin 4096) (k : Fin 256) :
    iblk m c 1 t (ix2 p k) = V m c main_v41 (ix2 (⟨t.val * 4096 + p.val, by omega⟩ : Fin 131072) k) := by
  obtain ⟨e80, e81, e00, e01, e10, e11, e20, e21, e30, e31, e40, e41, e50, e51, e60, e61, e70, e71⟩ := block_index t
  show V m c (Pipeline.arrRef spec0 1) (((cfg0.win 1).blk t).view.emb (ix2 p k)) = _
  refine congrArg (V m c main_v41) (funext fun a => Fin.ext ?_)
  match a with
  | ⟨0, _⟩ => show win0_1.index t (0 : Fin 2) * 4096 + 1 * p.val = t.val * 4096 + p.val; omega
  | ⟨1, _⟩ => show win0_1.index t (1 : Fin 2) * 256 + 1 * k.val = k.val; omega

theorem read2 (c : Dev nD) (t : Fin cfg0.N) (k : Fin 256) (f : Fin 128) :
    iblk m c 2 t (ix2 k f) = V m c main_v33 (ix2 k f) := by
  obtain ⟨e80, e81, e00, e01, e10, e11, e20, e21, e30, e31, e40, e41, e50, e51, e60, e61, e70, e71⟩ := block_index t
  show V m c (Pipeline.arrRef spec0 2) (((cfg0.win 2).blk t).view.emb (ix2 k f)) = _
  refine congrArg (V m c main_v33) (funext fun a => Fin.ext ?_)
  match a with
  | ⟨0, _⟩ => show win0_2.index t (0 : Fin 2) * 256 + 1 * k.val = k.val; omega
  | ⟨1, _⟩ => show win0_2.index t (1 : Fin 2) * 128 + 1 * f.val = f.val; omega

theorem read3 (c : Dev nD) (t : Fin cfg0.N) (f : Fin 128) :
    iblk m c 3 t (ix2 (0 : Fin 1) f) = V m c main_v35 (ix2 (0 : Fin 1) f) := by
  obtain ⟨e80, e81, e00, e01, e10, e11, e20, e21, e30, e31, e40, e41, e50, e51, e60, e61, e70, e71⟩ := block_index t
  show V m c (Pipeline.arrRef spec0 3) (((cfg0.win 3).blk t).view.emb (ix2 (0 : Fin 1) f)) = _
  refine congrArg (V m c main_v35) (funext fun a => Fin.ext ?_)
  match a with
  | ⟨0, _⟩ => show win0_3.index t (0 : Fin 2) * 1 + 1 * 0 = 0; omega
  | ⟨1, _⟩ => show win0_3.index t (1 : Fin 2) * 128 + 1 * f.val = f.val; omega

theorem read4 (c : Dev nD) (t : Fin cfg0.N) (k : Fin 256) (f : Fin 128) :
    iblk m c 4 t (ix2 k f) = V m c main_v34 (ix2 k f) := by
  obtain ⟨e80, e81, e00, e01, e10, e11, e20, e21, e30, e31, e40, e41, e50, e51, e60, e61, e70, e71⟩ := block_index t
  show V m c (Pipeline.arrRef spec0 4) (((cfg0.win 4).blk t).view.emb (ix2 k f)) = _
  refine congrArg (V m c main_v34) (funext fun a => Fin.ext ?_)
  match a with
  | ⟨0, _⟩ => show win0_4.index t (0 : Fin 2) * 256 + 1 * k.val = k.val; omega
  | ⟨1, _⟩ => show win0_4.index t (1 : Fin 2) * 128 + 1 * f.val = f.val; omega

theorem read5 (c : Dev nD) (t : Fin cfg0.N) (f : Fin 128) :
    iblk m c 5 t (ix2 (0 : Fin 1) f) = V m c main_v36 (ix2 (0 : Fin 1) f) := by
  obtain ⟨e80, e81, e00, e01, e10, e11, e20, e21, e30, e31, e40, e41, e50, e51, e60, e61, e70, e71⟩ := block_index t
  show V m c (Pipeline.arrRef spec0 5) (((cfg0.win 5).blk t).view.emb (ix2 (0 : Fin 1) f)) = _
  refine congrArg (V m c main_v36) (funext fun a => Fin.ext ?_)
  match a with
  | ⟨0, _⟩ => show win0_5.index t (0 : Fin 2) * 1 + 1 * 0 = 0; omega
  | ⟨1, _⟩ => show win0_5.index t (1 : Fin 2) * 128 + 1 * f.val = f.val; omega

theorem read6 (c : Dev nD) (t : Fin cfg0.N) (f : Fin 128) :
    iblk m c 6 t (ix2 (0 : Fin 1) f) = V m c main_v38 (ix2 (0 : Fin 1) f) := by
  obtain ⟨e80, e81, e00, e01, e10, e11, e20, e21, e30, e31, e40, e41, e50, e51, e60, e61, e70, e71⟩ := block_index t
  show V m c (Pipeline.arrRef spec0 6) (((cfg0.win 6).blk t).view.emb (ix2 (0 : Fin 1) f)) = _
  refine congrArg (V m c main_v38) (funext fun a => Fin.ext ?_)
  match a with
  | ⟨0, _⟩ => show win0_6.index t (0 : Fin 2) * 1 + 1 * 0 = 0; omega
  | ⟨1, _⟩ => show win0_6.index t (1 : Fin 2) * 128 + 1 * f.val = f.val; omega

theorem read7 (c : Dev nD) (t : Fin cfg0.N) :
    iblk m c 7 t (ix2 (0 : Fin 1) (0 : Fin 1)) = V m c main_v39 (ix2 (0 : Fin 1) (0 : Fin 1)) := by
  obtain ⟨e80, e81, e00, e01, e10, e11, e20, e21, e30, e31, e40, e41, e50, e51, e60, e61, e70, e71⟩ := block_index t
  show V m c (Pipeline.arrRef spec0 7) (((cfg0.win 7).blk t).view.emb (ix2 (0 : Fin 1) (0 : Fin 1))) = _
  refine congrArg (V m c main_v39) (funext fun a => Fin.ext ?_)
  match a with
  | ⟨0, _⟩ => show win0_7.index t (0 : Fin 2) * 1 + 1 * 0 = 0; omega
  | ⟨1, _⟩ => show win0_7.index t (1 : Fin 2) * 1 + 1 * 0 = 0; omega

/-- The output block's coordinates at a point. -/
theorem out_coords (t : Fin cfg0.N) (p : Fin 4096) (q : Fin 128) :
    ((((cfg0.win 8).blk t).view.emb (ix2 p q)) 0).val = t.val * 4096 + p.val
    ∧ ((((cfg0.win 8).blk t).view.emb (ix2 p q)) 1).val = q.val := by
  obtain ⟨e80, e81, e00, e01, e10, e11, e20, e21, e30, e31, e40, e41, e50, e51, e60, e61, e70, e71⟩ := block_index t
  constructor
  · show win0_8.index t (0 : Fin 2) * 4096 + 1 * p.val = t.val * 4096 + p.val; omega
  · show win0_8.index t (1 : Fin 2) * 128 + 1 * q.val = q.val; omega

/-- WHAT POINT `t` WRITES BACK is block `t` of `gateArray` of the arrays as the region finds them. -/
theorem flushed_eq (c : Dev nD) (t : Fin cfg0.N) :
    (dats m 0 c).flushed 8 t = ((cfg0.win 8).blk t).view.read (Elt Ideal)
      (gateArray (V m c main_v40) (V m c main_v41) (V m c main_v33) (V m c main_v35) (V m c main_v34) (V m c main_v36)
        (V m c main_v38) (V m c main_v39)) := by
  show (cfg0.win 8).cut (grid0.coords t) ((dats m 0 c).after 8 t) = _
  rw [after0_8]
  unfold out0_8
  rw [View.canon_unit_zero origin]
  simp only [View.ld_unit_zero (S := S4096x256) origin, View.ld_unit_zero (S := S256x128) origin,
    View.ld_unit_zero (S := S1x128) origin, View.ld_unit_zero (S := S1x1) origin]
  have ht : t.val < 32 := lt_of_lt_of_eq t.isLt N_0
  funext j
  obtain ⟨p, q, rfl⟩ : ∃ (p : Fin 4096) (q : Fin 128), j = ix2 p q := ⟨j 0, j 1, eq_ix2 j⟩
  exact block_gate (V m c main_v40) (V m c main_v41) (V m c main_v33) (V m c main_v35) (V m c main_v34) (V m c main_v36)
    (V m c main_v38) (V m c main_v39) (iblk m c 0 t) (iblk m c 1 t) (iblk m c 2 t) (iblk m c 3 t) (iblk m c 4 t)
    (iblk m c 5 t) (iblk m c 6 t) (iblk m c 7 t) t.val ht
    (read0 m c t ht) (read1 m c t ht) (read2 m c t) (read3 m c t) (read4 m c t) (read5 m c t) (read6 m c t) (read7 m c t)
    p q (((cfg0.win 8).blk t).view.emb (ix2 p q)) (out_coords t p q).1 (out_coords t p q).2

/-- An index of the output is in point `t`'s block iff each coordinate is in the block's range on its axis. -/
theorem mem_block (t : Fin cfg0.N) (i : S131072x128.Idx) :
    i ∈ ((cfg0.win 8).blk t).view.set ↔ ∀ a : Fin 2, win0_8.index t a * S4096x128.size a ≤ (i a).val
      ∧ (i a).val < win0_8.index t a * S4096x128.size a + S4096x128.size a := by
  show i ∈ ((View.whole main_v42).slice (win0_8.rect t)).set ↔ _
  rw [View.set_slice_whole, Rect.mem_set_unit]
  exact Iff.rfl

/-- THE COVER: row `r` of the output lies in the block of point `r / 4096`, and every point writes its block back. -/
theorem cover (i : S131072x128.Idx) :
    ∃ t : Fin cfg0.N, (cfg0.win 8).flush t = true ∧ i ∈ ((cfg0.win 8).blk t).view.set := by
  have hi0 : (i 0).val < 131072 := (i 0).isLt
  have hi1 : (i 1).val < 128 := (i 1).isLt
  obtain ⟨t, ht⟩ := block_onto ⟨(i 0).val / 4096, by omega⟩
  have q0 : win0_8.index t (0 : Fin 2) = (i 0).val / 4096 := congrFun ht 0
  have q1 : win0_8.index t (1 : Fin 2) = 0 := congrFun ht 1
  refine ⟨t, flush0_8 t, ?_⟩
  rw [mem_block]
  intro a
  match a with
  | ⟨0, _⟩ =>
    show win0_8.index t (0 : Fin 2) * 4096 ≤ (i 0).val ∧ (i 0).val < win0_8.index t (0 : Fin 2) * 4096 + 4096
    omega
  | ⟨1, _⟩ =>
    show win0_8.index t (1 : Fin 2) * 128 ≤ (i 1).val ∧ (i 1).val < win0_8.index t (1 : Fin 2) * 128 + 128
    omega

/-- THE OUTPUT ARRAY after the region is `gateArray` of the arrays the region staged. -/
theorem final (c : Dev nD) :
    (dats m 0 c).arrAt 8 cfg0.N = (gateArray (V m c main_v40) (V m c main_v41) (V m c main_v33) (V m c main_v35) (V m c main_v34) (V m c main_v36)
        (V m c main_v38) (V m c main_v39)) :=
  (dats m 0 c).arrAt_eq_of_cover 8 _ (fun t _ => flushed_eq m c t) cover

end Cert.KernelIdeal.Arr

end
-- ==== Proof.KernelRun.lean ====
/-
  The kernel program's run, read: its result array is the gate array re-laid as 8 × 128 × 128 × 128.

  After the region the program has one more host operation, the reshape of the 131072 × 128 output back to the
  image layout.  The generated frame run leaves every buffer the pipeline does not own at what that tail computes
  from the region's final arrays; the tail's operand is the output window's array, which KernelArray.lean shows
  to be `gateArray` of the staged arrays.
-/
import proofs.«155180_j46213848105841_1_alg».proof.Proof.KernelArray
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The result array: the gate array of the staged arrays, re-laid as an image. -/
def result (c : Dev nD) : S8x128x128x128.Idx → EReal := fun i =>
  shapeCast S8x128x128x128 (Arr.gateArray (V m c main_v40) (V m c main_v41) (V m c main_v33) (V m c main_v35)
    (V m c main_v34) (V m c main_v36) (V m c main_v38) (V m c main_v39)) shapeCasts_S131072x128_S8x128x128x128 i

/-- After the frame run the result buffer holds `result`. -/
theorem result_eq (r : PUnit × MemSt nD τ sig (Elt Ideal))
    (h : Pipeline.FramePost cfgs (dats m) 0 (Pipeline.afterTail₀ cfgs (dats m) 0 (V0 m) [hostOps1]) r) (c : Dev nD) :
    r.2.mem ((c : Thread nD τ).loc main_v43) = result m c := by
  refine ((h c).2 main_v43 (Pipeline.mem_restRefs_of main_v43 (by decide) (by decide))).trans ?_
  unfold Pipeline.afterTail₀
  show StableHlo.after hostOps1 _ (Proc.devRef .tc main_v43) = _
  after_results
  unfold result
  rw [Pipeline.withArrays_arr spec0 launch0.win.arr_inj c _ _ 8, Arr.final]
  rfl

/-- THE RUN: every weakly fair execution terminates with the result buffer at `result` and the arguments unchanged. -/
theorem run : θ_run defs (onTc (τ := τ) (main (F := Ideal))) ⟨m, fun _ => 0, ρ⟩ fun r => ∀ c : Dev nD,
      r.2.mem ((c : Thread nD τ).loc main_v43) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19) :=
  (θ_run defs _ _).mono (fun r h c => ⟨result_eq m r h c,
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).2 main_arg15 (Pipeline.mem_restRefs_of main_arg15 (by decide) (by decide))).trans (W_main_arg15 m (dats m) c),
      ((h c).2 main_arg16 (Pipeline.mem_restRefs_of main_arg16 (by decide) (by decide))).trans (W_main_arg16 m (dats m) c),
      ((h c).2 main_arg17 (Pipeline.mem_restRefs_of main_arg17 (by decide) (by decide))).trans (W_main_arg17 m (dats m) c),
      ((h c).2 main_arg18 (Pipeline.mem_restRefs_of main_arg18 (by decide) (by decide))).trans (W_main_arg18 m (dats m) c),
      ((h c).2 main_arg19 (Pipeline.mem_restRefs_of main_arg19 (by decide) (by decide))).trans (W_main_arg19 m (dats m) c)⟩)
    (run_main m ρ)

end Cert.KernelIdeal.Whole

end
-- ==== Proof.HostTerms.lean ====
/-
  The parameter plumbing before the kernel launch, as array terms.

  Before the launch the program scales each linear layer by its normalisation: the scale `γ · rsqrt (v + ε)` per feature,
  the weights times the scale of their output feature, and the bias `(b · scale + β) − μ · scale`.  These are the terms
  of those operations, named once, so that the equations saying what each staged array holds can be stated.
-/
import proofs.«155180_j46213848105841_1_alg».proof.Proof.Gen.KernelIdeal.Frame
import Idealize.ShloMosaic.Lib.StableHlo.Run
import Idealize.ShloMosaic.PureOps.Ideal
import Idealize.ShloMosaic.Lib.ValueIdx

set_option maxRecDepth 16384

noncomputable section

namespace Cert.KernelIdeal.Host

open Cert.KernelIdeal Cert.KernelIdeal.Gen Idealize.ShloMosaic Idealize.ShloMosaic.TcCoe Idealize.SL.Sem

/-- The scale of a 128-feature normalisation: `γ · rsqrt (v + ε)`. -/
def scale128 (γ v : FVec Ideal S128 .f32) : FVec Ideal S128 .f32 :=
  mulf γ (Host.rsqrt (addf v (broadcastInDim S128 ![] bcast_S_S128 (constant (F := Ideal) S_ .f32 0x3A83126F#32))))

/-- The folded bias of a 128-feature layer: `(b · scale + β) − μ · scale`. -/
def bias128 (b γ β μ v : FVec Ideal S128 .f32) : FVec Ideal S128 .f32 :=
  subf (addf (mulf b (scale128 γ v)) β) (mulf μ (scale128 γ v))

/-- The folded weights of a 256 → 128 layer: each column times its feature's scale. -/
def weights128 (W : FVec Ideal S256x128 .f32) (γ v : FVec Ideal S128 .f32) : FVec Ideal S256x128 .bf16 :=
  truncf .bf16 (mulf W (broadcastInDim S256x128 ![0, 1] bcast_S1x128_S256x128_0_1
    (broadcastInDim S1x128 ![1] bcast_S128_S1x128_1 (scale128 γ v)))) bitsLt_bf16_f32

/-- The scale of the one-feature normalisation. -/
def scale1 (γ v : FVec Ideal S1 .f32) : FVec Ideal S1 .f32 :=
  mulf γ (Host.rsqrt (addf v (broadcastInDim S1 ![] bcast_S_S1 (constant (F := Ideal) S_ .f32 0x3A83126F#32))))

/-- The folded bias of the one-feature layer. -/
def bias1 (b γ β μ v : FVec Ideal S1 .f32) : FVec Ideal S1 .f32 :=
  subf (addf (mulf b (scale1 γ v)) β) (mulf μ (scale1 γ v))

/-- The folded weights of the 128 → 1 layer. -/
def weights1 (W : FVec Ideal S128x1 .f32) (γ v : FVec Ideal S1 .f32) : FVec Ideal S128x1 .f32 :=
  mulf W (broadcastInDim S128x1 ![0, 1] bcast_S1x1_S128x1_0_1 (broadcastInDim S1x1 ![1] bcast_S1_S1x1_1 (scale1 γ v)))

end Cert.KernelIdeal.Host

end
-- ==== Proof.HostSignals.lean ====
/-
  What the two signal windows stage: each 8 × 128 × 128 × 256 input re-laid as 131072 rows of 256 channels.
-/
import proofs.«155180_j46213848105841_1_alg».proof.Proof.HostTerms
import Idealize.ShloMosaic.Lib.StableHlo.Run
import Idealize.ShloMosaic.PureOps.Ideal
import Idealize.ShloMosaic.Lib.ValueIdx

set_option maxRecDepth 16384

noncomputable section

namespace Cert.KernelIdeal.Host

open Cert.KernelIdeal Cert.KernelIdeal.Gen Idealize.ShloMosaic Idealize.ShloMosaic.TcCoe Idealize.SL.Sem

variable (m : (ℓ : Loc nD τ sig) → Buf (Elt Ideal) ℓ)

set_option maxHeartbeats 4000000 in
/-- The gating signal as the region finds it: the input array re-laid in rows. -/
theorem staged_g (c : Dev nD) : (V m c main_v40 : S131072x256.Idx → EReal)
    = fun i => shapeCast S131072x256 (m ((c : Thread nD τ).loc main_arg0)) shapeCasts_S8x128x128x256_S131072x256 i := by
  dsimp only [V, V0]
  simp only [hostOps0, List.flatten_cons, List.flatten_nil, List.append_nil, List.cons_append, List.nil_append]
  after_results_simp
  rfl

set_option maxHeartbeats 4000000 in
/-- The skip signal as the region finds it. -/
theorem staged_x (c : Dev nD) : (V m c main_v41 : S131072x256.Idx → EReal)
    = fun i => shapeCast S131072x256 (m ((c : Thread nD τ).loc main_arg1)) shapeCasts_S8x128x128x256_S131072x256 i := by
  dsimp only [V, V0]
  simp only [hostOps0, List.flatten_cons, List.flatten_nil, List.append_nil, List.cons_append, List.nil_append]
  after_results_simp
  rfl

end Cert.KernelIdeal.Host

end
-- ==== Proof.HostBranchG.lean ====
/-
  What the gating branch's two parameter windows stage: the folded weights and the folded bias row.
-/
import proofs.«155180_j46213848105841_1_alg».proof.Proof.HostTerms
import Idealize.ShloMosaic.Lib.StableHlo.Run
import Idealize.ShloMosaic.PureOps.Ideal
import Idealize.ShloMosaic.Lib.ValueIdx

set_option maxRecDepth 16384

noncomputable section

namespace Cert.KernelIdeal.Host

open Cert.KernelIdeal Cert.KernelIdeal.Gen Idealize.ShloMosaic Idealize.ShloMosaic.TcCoe Idealize.SL.Sem

variable (m : (ℓ : Loc nD τ sig) → Buf (Elt Ideal) ℓ)

set_option maxHeartbeats 4000000 in
theorem staged_Wg (c : Dev nD) : (V m c main_v33 : S256x128.Idx → EReal) = weights128 (m ((c : Thread nD τ).loc main_arg2)) (m ((c : Thread nD τ).loc main_arg4)) (m ((c : Thread nD τ).loc main_arg7)) := by
  dsimp only [V, V0]
  simp only [hostOps0, List.flatten_cons, List.flatten_nil, List.append_nil, List.cons_append, List.nil_append]
  after_results_simp
  rfl

set_option maxHeartbeats 4000000 in
theorem staged_bg (c : Dev nD) : (V m c main_v35 : S1x128.Idx → EReal)
    = fun i => shapeCast S1x128 (bias128 (m ((c : Thread nD τ).loc main_arg3)) (m ((c : Thread nD τ).loc main_arg4)) (m ((c : Thread nD τ).loc main_arg5)) (m ((c : Thread nD τ).loc main_arg6)) (m ((c : Thread nD τ).loc main_arg7))) shapeCasts_S128_S1x128 i := by
  dsimp only [V, V0]
  simp only [hostOps0, List.flatten_cons, List.flatten_nil, List.append_nil, List.cons_append, List.nil_append]
  after_results_simp
  rfl

end Cert.KernelIdeal.Host

end
-- ==== Proof.HostBranchX.lean ====
/-
  What the skip branch's two parameter windows stage: the folded weights and the folded bias row.
-/
import proofs.«155180_j46213848105841_1_alg».proof.Proof.HostTerms
import Idealize.ShloMosaic.Lib.StableHlo.Run
import Idealize.ShloMosaic.PureOps.Ideal
import Idealize.ShloMosaic.Lib.ValueIdx

set_option maxRecDepth 16384

noncomputable section

namespace Cert.KernelIdeal.Host

open Cert.KernelIdeal Cert.KernelIdeal.Gen Idealize.ShloMosaic Idealize.ShloMosaic.TcCoe Idealize.SL.Sem

variable (m : (ℓ : Loc nD τ sig) → Buf (Elt Ideal) ℓ)

set_option maxHeartbeats 4000000 in
theorem staged_Wx (c : Dev nD) : (V m c main_v34 : S256x128.Idx → EReal) = weights128 (m ((c : Thread nD τ).loc main_arg8)) (m ((c : Thread nD τ).loc main_arg10)) (m ((c : Thread nD τ).loc main_arg13)) := by
  dsimp only [V, V0]
  simp only [hostOps0, List.flatten_cons, List.flatten_nil, List.append_nil, List.cons_append, List.nil_append]
  after_results_simp
  rfl

set_option maxHeartbeats 4000000 in
theorem staged_bx (c : Dev nD) : (V m c main_v36 : S1x128.Idx → EReal)
    = fun i => shapeCast S1x128 (bias128 (m ((c : Thread nD τ).loc main_arg9)) (m ((c : Thread nD τ).loc main_arg10)) (m ((c : Thread nD τ).loc main_arg11)) (m ((c : Thread nD τ).loc main_arg12)) (m ((c : Thread nD τ).loc main_arg13))) shapeCasts_S128_S1x128 i := by
  dsimp only [V, V0]
  simp only [hostOps0, List.flatten_cons, List.flatten_nil, List.append_nil, List.cons_append, List.nil_append]
  after_results_simp
  rfl

end Cert.KernelIdeal.Host

end
-- ==== Proof.HostBranchP.lean ====
/-
  What the third layer's parameter windows stage: the folded weight column re-laid as a row, and the folded bias.
-/
import proofs.«155180_j46213848105841_1_alg».proof.Proof.HostTerms
import Idealize.ShloMosaic.Lib.StableHlo.Run
import Idealize.ShloMosaic.PureOps.Ideal
import Idealize.ShloMosaic.Lib.ValueIdx

set_option maxRecDepth 16384

noncomputable section

namespace Cert.KernelIdeal.Host

open Cert.KernelIdeal Cert.KernelIdeal.Gen Idealize.ShloMosaic Idealize.ShloMosaic.TcCoe Idealize.SL.Sem

variable (m : (ℓ : Loc nD τ sig) → Buf (Elt Ideal) ℓ)

set_option maxHeartbeats 4000000 in
theorem staged_wp (c : Dev nD) : (V m c main_v38 : S1x128.Idx → EReal)
    = fun i => shapeCast S1x128 (fun j => shapeCast S128 (weights1 (m ((c : Thread nD τ).loc main_arg14)) (m ((c : Thread nD τ).loc main_arg16)) (m ((c : Thread nD τ).loc main_arg19))) shapeCasts_S128x1_S128 j)
        shapeCasts_S128_S1x128 i := by
  dsimp only [V, V0]
  simp only [hostOps0, List.flatten_cons, List.flatten_nil, List.append_nil, List.cons_append, List.nil_append]
  after_results_simp
  rfl

end Cert.KernelIdeal.Host

end
-- ==== Proof.HostBiasP.lean ====
/-
  What the third layer's bias window stages: the folded one-feature bias as a 1 × 1 block.
-/
import proofs.«155180_j46213848105841_1_alg».proof.Proof.HostTerms
import Idealize.ShloMosaic.Lib.StableHlo.Run
import Idealize.ShloMosaic.PureOps.Ideal
import Idealize.ShloMosaic.Lib.ValueIdx

set_option maxRecDepth 16384

noncomputable section

namespace Cert.KernelIdeal.Host

open Cert.KernelIdeal Cert.KernelIdeal.Gen Idealize.ShloMosaic Idealize.ShloMosaic.TcCoe Idealize.SL.Sem

variable (m : (ℓ : Loc nD τ sig) → Buf (Elt Ideal) ℓ)

set_option maxHeartbeats 4000000 in
theorem staged_bp (c : Dev nD) : (V m c main_v39 : S1x1.Idx → EReal)
    = fun i => shapeCast S1x1 (bias1 (m ((c : Thread nD τ).loc main_arg15)) (m ((c : Thread nD τ).loc main_arg16)) (m ((c : Thread nD τ).loc main_arg17)) (m ((c : Thread nD τ).loc main_arg18)) (m ((c : Thread nD τ).loc main_arg19))) shapeCasts_S1_S1x1 i := by
  dsimp only [V, V0]
  simp only [hostOps0, List.flatten_cons, List.flatten_nil, List.append_nil, List.cons_append, List.nil_append]
  after_results_simp
  rfl

end Cert.KernelIdeal.Host

end
-- ==== Proof.HostIndex.lean ====
/-
  The staged arrays, read at one element.

  The signal rows: row `r = (b · 128 + h) · 128 + w` of the re-laid signal is pixel `(b, h, w)`'s channel row.  The folded
  parameters: a weight times the scale of its output feature; a bias `(b · scale + β) − μ · scale`; the third layer's
  weight column read as a row.  `scale` is GateSpec.lean's `γ · rsqrt (v + ε)`.
-/
import proofs.«155180_j46213848105841_1_alg».proof.Proof.HostTerms
import proofs.«155180_j46213848105841_1_alg».proof.Proof.GateSpec
import Idealize.ShloMosaic.Lib.Pipeline.Value
import Idealize.ShloMosaic.Lib.ValueLayout

set_option maxRecDepth 16384

noncomputable section

namespace Cert.KernelIdeal.Host

open Cert.KernelIdeal Cert.KernelIdeal.Gen Idealize.ShloMosaic Idealize.ShloMosaic.ValueIdx Cert.Gate

/-! ## The broadcasts of the plumbing, read at an index -/

theorem bc_const128 {α : Type} (x : S_.Idx → α) (f : Fin 128) :
    broadcastInDim S128 ![] bcast_S_S128 x (ix1 f) = x ix0 :=
  broadcastInDim_apply _ _ x _ _ (fun a => a.elim0)

theorem bc_const1 {α : Type} (x : S_.Idx → α) (u : Fin 1) :
    broadcastInDim S1 ![] bcast_S_S1 x (ix1 u) = x ix0 :=
  broadcastInDim_apply _ _ x _ _ (fun a => a.elim0)

theorem bc_feat {α : Type} (x : S128.Idx → α) (u : Fin 1) (f : Fin 128) :
    broadcastInDim S1x128 ![1] bcast_S128_S1x128_1 x (ix2 u f) = x (ix1 f) :=
  broadcastInDim_apply _ _ x _ _ (fun a => match a with
    | ⟨0, _⟩ => by show f.val = if (128 : Nat) = 1 then 0 else f.val; rw [if_neg (by decide)])

theorem bc_row {α : Type} (x : S1x128.Idx → α) (k : Fin 256) (f : Fin 128) :
    broadcastInDim S256x128 ![0, 1] bcast_S1x128_S256x128_0_1 x (ix2 k f) = x (ix2 (0 : Fin 1) f) :=
  broadcastInDim_apply _ _ x _ _ (fun a => match a with
    | ⟨0, _⟩ => by show 0 = if (1 : Nat) = 1 then 0 else k.val; rw [if_pos rfl]
    | ⟨1, _⟩ => by show f.val = if (128 : Nat) = 1 then 0 else f.val; rw [if_neg (by decide)])

theorem bc_one {α : Type} (x : S1.Idx → α) (u v : Fin 1) :
    broadcastInDim S1x1 ![1] bcast_S1_S1x1_1 x (ix2 u v) = x (ix1 (0 : Fin 1)) :=
  broadcastInDim_apply _ _ x _ _ (fun a => match a with
    | ⟨0, _⟩ => by show 0 = if (1 : Nat) = 1 then 0 else v.val; rw [if_pos rfl])

theorem bc_col {α : Type} (x : S1x1.Idx → α) (f : Fin 128) (u : Fin 1) :
    broadcastInDim S128x1 ![0, 1] bcast_S1x1_S128x1_0_1 x (ix2 f u) = x (ix2 (0 : Fin 1) (0 : Fin 1)) :=
  broadcastInDim_apply _ _ x _ _ (fun a => match a with
    | ⟨0, _⟩ => by show 0 = if (1 : Nat) = 1 then 0 else f.val; rw [if_pos rfl]
    | ⟨1, _⟩ => by show 0 = if (1 : Nat) = 1 then 0 else u.val; rw [if_pos rfl])

/-! ## The scales -/

theorem scale128_at (γ v : FVec Ideal S128 .f32) (f : Fin 128) :
    scale128 γ v (ix1 f) = scale (γ (ix1 f)) (v (ix1 f)) := by
  unfold scale128 scale
  rw [mulf_apply]
  show _ * Ideal.rsqrt (addf v _ (ix1 f)) = _
  rw [addf_apply, bc_const128]
  rfl

theorem scale1_at (γ v : FVec Ideal S1 .f32) (u : Fin 1) :
    scale1 γ v (ix1 u) = scale (γ (ix1 u)) (v (ix1 u)) := by
  unfold scale1 scale
  rw [mulf_apply]
  show _ * Ideal.rsqrt (addf v _ (ix1 u)) = _
  rw [addf_apply, bc_const1]
  rfl

/-! ## The folded parameters -/

/-- A folded weight: the weight times its output feature's scale. -/
theorem weights128_at (W : FVec Ideal S256x128 .f32) (γ v : FVec Ideal S128 .f32) (k : Fin 256) (f : Fin 128) :
    weights128 W γ v (ix2 k f) = W (ix2 k f) * scale (γ (ix1 f)) (v (ix1 f)) := by
  unfold weights128
  rw [truncf_apply, mulf_apply, bc_row, bc_feat, scale128_at]

/-- A folded bias, re-laid as a row. -/
theorem bias128_at (b γ β μ v : FVec Ideal S128 .f32) (f : Fin 128) :
    shapeCast S1x128 (bias128 b γ β μ v) shapeCasts_S128_S1x128 (ix2 (0 : Fin 1) f)
      = (b (ix1 f) * scale (γ (ix1 f)) (v (ix1 f)) + β (ix1 f)) - μ (ix1 f) * scale (γ (ix1 f)) (v (ix1 f)) := by
  rw [shapeCast_a_1a_apply]
  unfold bias128
  rw [subf_apply, addf_apply, mulf_apply, mulf_apply, scale128_at]

/-- The third layer's folded weight column, re-laid as a row. -/
theorem weights1_at (W : FVec Ideal S128x1 .f32) (γ v : FVec Ideal S1 .f32) (f : Fin 128) :
    shapeCast S1x128 (fun j => shapeCast S128 (weights1 W γ v) shapeCasts_S128x1_S128 j) shapeCasts_S128_S1x128
        (ix2 (0 : Fin 1) f)
      = W (ix2 f (0 : Fin 1)) * scale (γ (ix1 (0 : Fin 1))) (v (ix1 (0 : Fin 1))) := by
  rw [shapeCast_a_1a_apply]
  show shapeCast S128 (weights1 W γ v) shapeCasts_S128x1_S128 (ix1 f) = _
  rw [shapeCast_apply (weights1 W γ v) shapeCasts_S128x1_S128 (ix1 f) (ix2 f (0 : Fin 1)) (by
    rw [Shape.rowMajor_val_two, Shape.rowMajor_val_one]
    show f.val * 1 + 0 = f.val
    omega)]
  unfold weights1
  rw [mulf_apply, bc_col, bc_one, scale1_at]

/-- The third layer's folded bias, as a 1 × 1 block. -/
theorem bias1_at (b γ β μ v : FVec Ideal S1 .f32) :
    shapeCast S1x1 (bias1 b γ β μ v) shapeCasts_S1_S1x1 (ix2 (0 : Fin 1) (0 : Fin 1))
      = (b (ix1 (0 : Fin 1)) * scale (γ (ix1 (0 : Fin 1))) (v (ix1 (0 : Fin 1))) + β (ix1 (0 : Fin 1)))
          - μ (ix1 (0 : Fin 1)) * scale (γ (ix1 (0 : Fin 1))) (v (ix1 (0 : Fin 1))) := by
  rw [shapeCast_apply (bias1 b γ β μ v) shapeCasts_S1_S1x1 (ix2 (0 : Fin 1) (0 : Fin 1)) (ix1 (0 : Fin 1)) (by
    rw [Shape.rowMajor_val_two, Shape.rowMajor_val_one]
    rfl)]
  unfold bias1
  rw [subf_apply, addf_apply, mulf_apply, mulf_apply, scale1_at]

/-! ## The signals -/

/-- Row `(b · 128 + h) · 128 + w` of a re-laid signal is pixel `(b, h, w)`'s channel row. -/
theorem signal_at (a : FVec Ideal S8x128x128x256 .f32) (b : Fin 8) (h w : Fin 128) (k : Fin 256) (r : Fin 131072)
    (hr : r.val = (b.val * 128 + h.val) * 128 + w.val) :
    shapeCast S131072x256 a shapeCasts_S8x128x128x256_S131072x256 (ix2 r k) = a (ix4 b h w k) :=
  shapeCast_apply a _ _ _ (by
    rw [Shape.rowMajor_val_four, Shape.rowMajor_val_two]
    show ((b.val * 128 + h.val) * 128 + w.val) * 256 + k.val = r.val * 256 + k.val
    rw [hr])

end Cert.KernelIdeal.Host

end
-- ==== Proof.RefIndex.lean ====
/-
  The reference program's result, read at one element.

  At pixel `(b, h, w)` and feature `f` the reference's composed operations are the gate of GateSpec.lean `gateRef` on the
  pixel's two channel rows: its contractions read the pixel's row against a weight column, its broadcasts read a
  per-feature parameter at the feature (a one-feature parameter at its only index), and its operations at the ideal
  instance are the extended reals' own.  The index equations below say which element each composed index map reads.
-/
import proofs.«155180_j46213848105841_1_alg».proof.Proof.Gen.ReferenceIdeal.Read
import proofs.«155180_j46213848105841_1_alg».proof.Proof.GateSpec

set_option maxRecDepth 16384

noncomputable section

namespace Cert.ReferenceIdeal.AtIndex

open Cert.ReferenceIdeal Cert.ReferenceIdeal.Read Idealize.ShloMosaic Idealize.ShloMosaic.ValueIdx Cert.Gate

variable (b : Fin 8) (h w f : Fin 128)

/-! ## Which element each composed index map reads -/

theorem pix_g (k : Fin 256) : lidx_main_v0 (ix4 b h w f) k = ix4 b h w k := funext fun a => Fin.ext (by
    match a with
    | ⟨0, _⟩ => rfl
    | ⟨1, _⟩ => rfl
    | ⟨2, _⟩ => rfl
    | ⟨3, _⟩ => rfl)
theorem col_g (k : Fin 256) : ridx_main_v0 (ix4 b h w f) k = ix2 k f := funext fun a => Fin.ext (by
    match a with
    | ⟨0, _⟩ => rfl
    | ⟨1, _⟩ => rfl)
theorem pix_x (k : Fin 256) : lidx_main_v16 (ix4 b h w f) k = ix4 b h w k := funext fun a => Fin.ext (by
    match a with
    | ⟨0, _⟩ => rfl
    | ⟨1, _⟩ => rfl
    | ⟨2, _⟩ => rfl
    | ⟨3, _⟩ => rfl)
theorem col_x (k : Fin 256) : ridx_main_v16 (ix4 b h w f) k = ix2 k f := funext fun a => Fin.ext (by
    match a with
    | ⟨0, _⟩ => rfl
    | ⟨1, _⟩ => rfl)
theorem pix_p (k : Fin 128) : lidx_main_v34 (idx_main_v56 (ix4 b h w f)) k = ix4 b h w k := funext fun a => Fin.ext (by
    match a with
    | ⟨0, _⟩ => rfl
    | ⟨1, _⟩ => rfl
    | ⟨2, _⟩ => rfl
    | ⟨3, _⟩ => rfl)
theorem col_p (k : Fin 128) : ridx_main_v34 (idx_main_v56 (ix4 b h w f)) k = ix2 k (0 : Fin 1) := funext fun a => Fin.ext (by
    match a with
    | ⟨0, _⟩ => rfl
    | ⟨1, _⟩ => rfl)
theorem feat_1 : idx_main_v1 (idx_main_v2 (ix4 b h w f)) = ix1 f := funext fun a => Fin.ext (by
    match a with
    | ⟨0, _⟩ => rfl)
theorem feat_8 : idx_main_v8 (idx_main_v9 (ix4 b h w f)) = ix1 f := funext fun a => Fin.ext (by
    match a with
    | ⟨0, _⟩ => rfl)
theorem feat_13 : idx_main_v13 (idx_main_v14 (ix4 b h w f)) = ix1 f := funext fun a => Fin.ext (by
    match a with
    | ⟨0, _⟩ => rfl)
theorem feat_17 : idx_main_v17 (idx_main_v18 (ix4 b h w f)) = ix1 f := funext fun a => Fin.ext (by
    match a with
    | ⟨0, _⟩ => rfl)
theorem feat_24 : idx_main_v24 (idx_main_v25 (ix4 b h w f)) = ix1 f := funext fun a => Fin.ext (by
    match a with
    | ⟨0, _⟩ => rfl)
theorem feat_29 : idx_main_v29 (idx_main_v30 (ix4 b h w f)) = ix1 f := funext fun a => Fin.ext (by
    match a with
    | ⟨0, _⟩ => rfl)
theorem one_35 : idx_main_v35 (idx_main_v36 (idx_main_v56 (ix4 b h w f))) = ix1 (0 : Fin 1) := funext fun a => Fin.ext (by
    match a with
    | ⟨0, _⟩ => rfl)
theorem one_42 : idx_main_v42 (idx_main_v43 (idx_main_v56 (ix4 b h w f))) = ix1 (0 : Fin 1) := funext fun a => Fin.ext (by
    match a with
    | ⟨0, _⟩ => rfl)
theorem one_47 : idx_main_v47 (idx_main_v48 (idx_main_v56 (ix4 b h w f))) = ix1 (0 : Fin 1) := funext fun a => Fin.ext (by
    match a with
    | ⟨0, _⟩ => rfl)

/-- THE REFERENCE AT AN ELEMENT is the reference gate of the pixel's two rows. -/
theorem ref_at (x0 x1 : S8x128x128x256.Idx → EReal) (x2 : S256x128.Idx → EReal) (x3 x4 x5 x6 x7 : S128.Idx → EReal)
    (x8 : S256x128.Idx → EReal) (x9 x10 x11 x12 x13 : S128.Idx → EReal) (x14 : S128x1.Idx → EReal)
    (x15 x16 x17 x18 x19 : S1.Idx → EReal) :
    val_main_v57 (F := Ideal) x0 x1 x2 x3 x4 x5 x6 x7 x8 x9 x10 x11 x12 x13 x14 x15 x16 x17 x18 x19 (ix4 b h w f)
      = gateRef (fun k => x0 (ix4 b h w k)) (fun k => x1 (ix4 b h w k)) (fun k f' => x2 (ix2 k f')) (fun k f' => x8 (ix2 k f'))
          (fun f' => x3 (ix1 f')) (fun f' => x4 (ix1 f')) (fun f' => x5 (ix1 f')) (fun f' => x6 (ix1 f')) (fun f' => x7 (ix1 f'))
          (fun f' => x9 (ix1 f')) (fun f' => x10 (ix1 f')) (fun f' => x11 (ix1 f')) (fun f' => x12 (ix1 f')) (fun f' => x13 (ix1 f'))
          (fun f' => x14 (ix2 f' (0 : Fin 1))) (x15 (ix1 (0 : Fin 1))) (x16 (ix1 (0 : Fin 1))) (x17 (ix1 (0 : Fin 1)))
          (x18 (ix1 (0 : Fin 1))) (x19 (ix1 (0 : Fin 1))) f := by
  simp only [val_main_v57_apply, val_main_v56_apply, val_main_v55_apply, val_main_v54_apply, val_main_cst_3_apply, val_main_v53_apply, val_main_v52_apply, val_main_cst_2_apply, val_main_v51_apply, val_main_v50_apply, val_main_v49_apply, val_main_v48_apply, val_main_v47_apply, val_main_v46_apply, val_main_v45_apply, val_main_v44_apply, val_main_v43_apply, val_main_v42_apply, val_main_v41_apply, val_main_v40_apply, val_main_v39_apply, val_main_v38_apply, val_main_cst_1_apply, val_main_v37_apply, val_main_v36_apply, val_main_v35_apply, val_main_v34_apply, val_main_v33_apply, val_main_call0_v0_apply, val_main_call0_cst_apply, val_main_v32_apply, val_main_v31_apply, val_main_v30_apply, val_main_v29_apply, val_main_v28_apply, val_main_v27_apply, val_main_v26_apply, val_main_v25_apply, val_main_v24_apply, val_main_v23_apply, val_main_v22_apply, val_main_v21_apply, val_main_v20_apply, val_main_cst_0_apply, val_main_v19_apply, val_main_v18_apply, val_main_v17_apply, val_main_v16_apply, val_main_v15_apply, val_main_v14_apply, val_main_v13_apply, val_main_v12_apply, val_main_v11_apply, val_main_v10_apply, val_main_v9_apply, val_main_v8_apply, val_main_v7_apply, val_main_v6_apply, val_main_v5_apply, val_main_v4_apply, val_main_cst_apply, val_main_v3_apply, val_main_v2_apply, val_main_v1_apply, val_main_v0_apply]
  simp only [pix_p, col_p, pix_g, col_g, pix_x, col_x, feat_1, feat_8, feat_13, feat_17, feat_24, feat_29, one_35, one_42, one_47]
  unfold gateRef lin scale
  simp only [Ideal.mulf_def, Ideal.addf_def, Ideal.subf_def, Ideal.maximumf_def, Ideal.hostDivf_def, Ideal.hostUnary_rsqrt_def,
    Ideal.hostUnary_exp_def, Ideal.hostNegf_def, Ideal.negf_def, Ideal.ofBits_def]

end Cert.ReferenceIdeal.AtIndex

end
-- ==== Proof.Finite.lean ====
/-
  The precondition, decoded.

  The stated precondition is a conjunction of `all`-reductions: for each of the twenty inputs, `|x| < +∞` at every
  element, and for the three variance inputs `x ≥ 0` at every element.  An extended real with `|x| < +∞` is neither
  infinity, that is, a real number; so under the precondition every input element is real and every variance is
  non-negative — what the folding law needs.
-/
import proofs.«155180_j46213848105841_1_alg».proof.Proof.Gen.Pre_finite_inputs
import Idealize.ShloMosaic.PureOps.Ideal
import Idealize.ShloMosaic.PureOps.Ideal.Laws
import Idealize.ShloMosaic.Lib.ReduceAll
import Idealize.ShloMosaic.Lib.Affine

set_option maxRecDepth 16384

noncomputable section

namespace Cert.Pre_finite_inputs.Decoded

open Cert.Pre_finite_inputs Cert.Pre_finite_inputs.Gen Idealize.ShloMosaic

instance : Subsingleton S_.Idx := ⟨fun a b => funext fun d => d.elim0⟩

theorem and_one : ∀ (a b : BitVec 1), IntOp.andi a b = 1#1 ↔ a = 1#1 ∧ b = 1#1 := by decide

theorem ofBool_one (b : Bool) : BitVec.ofBool b = 1#1 ↔ b = true := by cases b <;> decide

/-- The word `0x7F800000` is `+∞`. -/
theorem inf_word : Ideal.ofBits .f32 0x7F800000#32 = ⊤ := by
  simp [Ideal.ofBits, Ideal.ieee]

/-- `|x| < +∞` says `x` is neither infinity. -/
theorem real_of_abs_lt (x y : EReal) (hy : y = Ideal.ofBits .f32 0x7F800000#32)
    (h : Ideal.cmp .olt (max x (-x)) y = 1#1) : x ≠ ⊤ ∧ x ≠ ⊥ := by
  subst hy
  unfold Ideal.cmp at h
  rw [ofBool_one, decide_eq_true_eq, inf_word] at h
  constructor
  · rintro rfl; simp at h
  · rintro rfl; simp at h

/-- `x ≥ 0` against the zero word. -/
theorem nonneg_of_ge (x y : EReal) (hy : y = Ideal.ofBits .f32 0x00000000#32)
    (h : Ideal.cmp .oge x y = 1#1) : 0 ≤ x := by
  subst hy
  unfold Ideal.cmp at h
  rw [ofBool_one, decide_eq_true_eq, Ideal.ofBits_zero_f32] at h
  exact h

/-- THE PRECONDITION DECODED: every input element is a real number, and the three variances are non-negative. -/
theorem decoded (a0 : FVec Ideal S8x128x128x256 .f32) (a1 : FVec Ideal S8x128x128x256 .f32) (a2 : FVec Ideal S256x128 .f32) (a3 : FVec Ideal S128 .f32) (a4 : FVec Ideal S128 .f32) (a5 : FVec Ideal S128 .f32) (a6 : FVec Ideal S128 .f32) (a7 : FVec Ideal S128 .f32) (a8 : FVec Ideal S256x128 .f32) (a9 : FVec Ideal S128 .f32) (a10 : FVec Ideal S128 .f32) (a11 : FVec Ideal S128 .f32) (a12 : FVec Ideal S128 .f32) (a13 : FVec Ideal S128 .f32) (a14 : FVec Ideal S128x1 .f32) (a15 : FVec Ideal S1 .f32) (a16 : FVec Ideal S1 .f32) (a17 : FVec Ideal S1 .f32) (a18 : FVec Ideal S1 .f32) (a19 : FVec Ideal S1 .f32)
    (h : fn (F := Ideal) a0 a1 a2 a3 a4 a5 a6 a7 a8 a9 a10 a11 a12 a13 a14 a15 a16 a17 a18 a19 = fun _ => 1#1) :
    (∀ i, a0 i ≠ ⊤ ∧ a0 i ≠ ⊥)
      ∧ (∀ i, a1 i ≠ ⊤ ∧ a1 i ≠ ⊥)
      ∧ (∀ i, a2 i ≠ ⊤ ∧ a2 i ≠ ⊥)
      ∧ (∀ i, a3 i ≠ ⊤ ∧ a3 i ≠ ⊥)
      ∧ (∀ i, a4 i ≠ ⊤ ∧ a4 i ≠ ⊥)
      ∧ (∀ i, a5 i ≠ ⊤ ∧ a5 i ≠ ⊥)
      ∧ (∀ i, a6 i ≠ ⊤ ∧ a6 i ≠ ⊥)
      ∧ (∀ i, a7 i ≠ ⊤ ∧ a7 i ≠ ⊥)
      ∧ (∀ i, a8 i ≠ ⊤ ∧ a8 i ≠ ⊥)
      ∧ (∀ i, a9 i ≠ ⊤ ∧ a9 i ≠ ⊥)
      ∧ (∀ i, a10 i ≠ ⊤ ∧ a10 i ≠ ⊥)
      ∧ (∀ i, a11 i ≠ ⊤ ∧ a11 i ≠ ⊥)
      ∧ (∀ i, a12 i ≠ ⊤ ∧ a12 i ≠ ⊥)
      ∧ (∀ i, a13 i ≠ ⊤ ∧ a13 i ≠ ⊥)
      ∧ (∀ i, a14 i ≠ ⊤ ∧ a14 i ≠ ⊥)
      ∧ (∀ i, a15 i ≠ ⊤ ∧ a15 i ≠ ⊥)
      ∧ (∀ i, a16 i ≠ ⊤ ∧ a16 i ≠ ⊥)
      ∧ (∀ i, a17 i ≠ ⊤ ∧ a17 i ≠ ⊥)
      ∧ (∀ i, a18 i ≠ ⊤ ∧ a18 i ≠ ⊥)
      ∧ (∀ i, a19 i ≠ ⊤ ∧ a19 i ≠ ⊥)
      ∧ (∀ i, 0 ≤ a7 i) ∧ (∀ i, 0 ≤ a13 i) ∧ (∀ i, 0 ≤ a19 i) := by
  have e := congrFun h (fun a => a.elim0)
  unfold fn fn_part1 fn_part2 fn_part3 fn_part4 fn_part5 fn_part6 at e
  simp only [andi] at e
  simp only [and_one] at e
  obtain ⟨⟨⟨⟨⟨⟨⟨⟨⟨⟨⟨⟨⟨⟨⟨⟨⟨⟨⟨⟨⟨⟨c0, c1⟩, c2⟩, c3⟩, c4⟩, c5⟩, c6⟩, c7⟩, c8⟩, c9⟩, c10⟩, c11⟩, c12⟩, c13⟩, c14⟩, c15⟩, c16⟩, c17⟩, c18⟩, c19⟩, c20⟩, c21⟩, c22⟩ := e
  exact ⟨fun i => real_of_abs_lt _ _ rfl (Host.reduce_andi_all _ _ _ _ _ c0 i),
    fun i => real_of_abs_lt _ _ rfl (Host.reduce_andi_all _ _ _ _ _ c1 i),
    fun i => real_of_abs_lt _ _ rfl (Host.reduce_andi_all _ _ _ _ _ c2 i),
    fun i => real_of_abs_lt _ _ rfl (Host.reduce_andi_all _ _ _ _ _ c3 i),
    fun i => real_of_abs_lt _ _ rfl (Host.reduce_andi_all _ _ _ _ _ c4 i),
    fun i => real_of_abs_lt _ _ rfl (Host.reduce_andi_all _ _ _ _ _ c5 i),
    fun i => real_of_abs_lt _ _ rfl (Host.reduce_andi_all _ _ _ _ _ c6 i),
    fun i => real_of_abs_lt _ _ rfl (Host.reduce_andi_all _ _ _ _ _ c7 i),
    fun i => real_of_abs_lt _ _ rfl (Host.reduce_andi_all _ _ _ _ _ c8 i),
    fun i => real_of_abs_lt _ _ rfl (Host.reduce_andi_all _ _ _ _ _ c9 i),
    fun i => real_of_abs_lt _ _ rfl (Host.reduce_andi_all _ _ _ _ _ c10 i),
    fun i => real_of_abs_lt _ _ rfl (Host.reduce_andi_all _ _ _ _ _ c11 i),
    fun i => real_of_abs_lt _ _ rfl (Host.reduce_andi_all _ _ _ _ _ c12 i),
    fun i => real_of_abs_lt _ _ rfl (Host.reduce_andi_all _ _ _ _ _ c13 i),
    fun i => real_of_abs_lt _ _ rfl (Host.reduce_andi_all _ _ _ _ _ c14 i),
    fun i => real_of_abs_lt _ _ rfl (Host.reduce_andi_all _ _ _ _ _ c15 i),
    fun i => real_of_abs_lt _ _ rfl (Host.reduce_andi_all _ _ _ _ _ c16 i),
    fun i => real_of_abs_lt _ _ rfl (Host.reduce_andi_all _ _ _ _ _ c17 i),
    fun i => real_of_abs_lt _ _ rfl (Host.reduce_andi_all _ _ _ _ _ c18 i),
    fun i => real_of_abs_lt _ _ rfl (Host.reduce_andi_all _ _ _ _ _ c19 i),
    fun i => nonneg_of_ge _ _ rfl (Host.reduce_andi_all _ _ _ _ _ c20 i),
    fun i => nonneg_of_ge _ _ rfl (Host.reduce_andi_all _ _ _ _ _ c21 i),
    fun i => nonneg_of_ge _ _ rfl (Host.reduce_andi_all _ _ _ _ _ c22 i)⟩

end Cert.Pre_finite_inputs.Decoded

end
-- ==== Proof.Bridge.lean ====
/-
  The bridge: under the precondition, the kernel program's result array is the reference's.

  Element `(b, h, w, f)` of the kernel's result is element `((b · 128 + h) · 128 + w, f)` of the gate array (the final
  reshape keeps row-major positions), that is, the folded gate of the pixel's two channel rows at the scaled
  parameters the plumbing computed; element `(b, h, w, f)` of the reference's result is the reference gate of the
  same rows at the plain parameters.  Under the precondition every operand is a real number and every variance is
  non-negative, so the two are one number (GateSpec.lean `gate_fold_of_finite`).
-/
import proofs.«155180_j46213848105841_1_alg».proof.Proof.KernelRun
import proofs.«155180_j46213848105841_1_alg».proof.Proof.HostSignals
import proofs.«155180_j46213848105841_1_alg».proof.Proof.HostBranchG
import proofs.«155180_j46213848105841_1_alg».proof.Proof.HostBranchX
import proofs.«155180_j46213848105841_1_alg».proof.Proof.HostBranchP
import proofs.«155180_j46213848105841_1_alg».proof.Proof.HostBiasP
import proofs.«155180_j46213848105841_1_alg».proof.Proof.HostIndex
import proofs.«155180_j46213848105841_1_alg».proof.Proof.RefIndex
import proofs.«155180_j46213848105841_1_alg».proof.Proof.Finite

set_option maxRecDepth 16384

noncomputable section

namespace Cert.Bridge

open Cert.KernelIdeal Cert.KernelIdeal.Gen Idealize.ShloMosaic Idealize.ShloMosaic.TcCoe Idealize.SL.Sem
open Idealize.ShloMosaic.ValueIdx Cert.Gate Cert.KernelIdeal

variable (m : (ℓ : Loc nD τ sig) → Buf (Elt Ideal) ℓ)

set_option maxHeartbeats 1000000 in
/-- THE KERNEL'S RESULT IS THE REFERENCE'S TERM of the same argument arrays, under the precondition. -/
theorem result_eq_ref (c : Dev nD)
    (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) = fun _ => 1#1) :
    Whole.result m c = Cert.ReferenceIdeal.Read.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  obtain ⟨f0, f1, f2, f3, f4, f5, f6, f7, f8, f9, f10, f11, f12, f13, f14, f15, f16, f17, f18, f19, n7, n13, n19⟩ := Cert.Pre_finite_inputs.Decoded.decoded _ _ _ _ _ _ _ _ _ _ _ _ _ _ _ _ _ _ _ _ hpre
  funext i
  obtain ⟨b, h, w, f, rfl⟩ : ∃ (b : Fin 8) (h w f : Fin 128), i = ix4 b h w f := ⟨i 0, i 1, i 2, i 3, eq_ix4 i⟩
  rw [Cert.ReferenceIdeal.AtIndex.ref_at]
  unfold Whole.result
  have hb := b.isLt
  have hh := h.isLt
  have hw := w.isLt
  rw [shapeCast_apply _ shapeCasts_S131072x128_S8x128x128x128 (ix4 b h w f)
    (ix2 (⟨(b.val * 128 + h.val) * 128 + w.val, by omega⟩ : Fin 131072) f) (by
      rw [Shape.rowMajor_val_two, Shape.rowMajor_val_four]; rfl)]
  rw [Arr.gateArray_at, Host.staged_g, Host.staged_x, Host.staged_Wg, Host.staged_bg, Host.staged_Wx, Host.staged_bx,
    Host.staged_wp, Host.staged_bp]
  simp only [Host.signal_at _ b h w _ (⟨(b.val * 128 + h.val) * 128 + w.val, by omega⟩ : Fin 131072) rfl,
    Host.weights128_at, Host.bias128_at, Host.weights1_at, Host.bias1_at]
  exact gate_fold_of_finite (fun k => (m ((c : Thread nD τ).loc main_arg0)) (ix4 b h w k)) (fun k => (m ((c : Thread nD τ).loc main_arg1)) (ix4 b h w k))
    (fun k f' => (m ((c : Thread nD τ).loc main_arg2)) (ix2 k f')) (fun k f' => (m ((c : Thread nD τ).loc main_arg8)) (ix2 k f'))
    (fun f' => (m ((c : Thread nD τ).loc main_arg3)) (ix1 f')) (fun f' => (m ((c : Thread nD τ).loc main_arg4)) (ix1 f')) (fun f' => (m ((c : Thread nD τ).loc main_arg5)) (ix1 f')) (fun f' => (m ((c : Thread nD τ).loc main_arg6)) (ix1 f')) (fun f' => (m ((c : Thread nD τ).loc main_arg7)) (ix1 f'))
    (fun f' => (m ((c : Thread nD τ).loc main_arg9)) (ix1 f')) (fun f' => (m ((c : Thread nD τ).loc main_arg10)) (ix1 f')) (fun f' => (m ((c : Thread nD τ).loc main_arg11)) (ix1 f')) (fun f' => (m ((c : Thread nD τ).loc main_arg12)) (ix1 f')) (fun f' => (m ((c : Thread nD τ).loc main_arg13)) (ix1 f'))
    (fun f' => (m ((c : Thread nD τ).loc main_arg14)) (ix2 f' (0 : Fin 1))) ((m ((c : Thread nD τ).loc main_arg15)) (ix1 (0 : Fin 1))) ((m ((c : Thread nD τ).loc main_arg16)) (ix1 (0 : Fin 1))) ((m ((c : Thread nD τ).loc main_arg17)) (ix1 (0 : Fin 1)))
    ((m ((c : Thread nD τ).loc main_arg18)) (ix1 (0 : Fin 1))) ((m ((c : Thread nD τ).loc main_arg19)) (ix1 (0 : Fin 1)))
    (fun _ => f0 _) (fun _ => f1 _) (fun _ _ => f2 _) (fun _ _ => f8 _)
    (fun _ => f3 _) (fun _ => f4 _) (fun _ => f5 _) (fun _ => f6 _) (fun _ => f7 _)
    (fun _ => f9 _) (fun _ => f10 _) (fun _ => f11 _) (fun _ => f12 _) (fun _ => f13 _)
    (fun _ => f14 _) (f15 _) (f16 _) (f17 _) (f18 _) (f19 _)
    (fun _ => n7 _) (fun _ => n13 _) (n19 _) f

end Cert.Bridge

end
-- ==== Proof.lean ====
/-
  The certificate of the attention-gate kernel against its reference: `Cert.Claim`.

  The kernel folds each inference-mode batch normalisation into the linear layer before it (weights and bias scaled
  before the launch), the reference normalises after each layer; on real inputs with non-negative variances the two
  are the same function (Proof/GateSpec.lean).  The three frame claims are the generated frame runs (the reference's
  is its generated run with the result dropped); the idealization's ledger is empty; the algebraic claim puts the
  kernel program's run, read as the gate array re-laid (Proof/KernelRun.lean), beside the reference's generated run,
  and joins them by Proof/Bridge.lean under the precondition.
-/
import proofs.«155180_j46213848105841_1_alg».proof.Defs
import proofs.«155180_j46213848105841_1_alg».proof.Proof.Gen.Kernel
import proofs.«155180_j46213848105841_1_alg».proof.Proof.Gen.Kernel.Skeleton
import proofs.«155180_j46213848105841_1_alg».proof.Proof.Gen.Kernel.Launch
import proofs.«155180_j46213848105841_1_alg».proof.Proof.Gen.Kernel.Points
import proofs.«155180_j46213848105841_1_alg».proof.Proof.Gen.Kernel.Frame
import proofs.«155180_j46213848105841_1_alg».proof.Proof.Gen.KernelIdeal
import proofs.«155180_j46213848105841_1_alg».proof.Proof.Gen.KernelIdeal.Skeleton
import proofs.«155180_j46213848105841_1_alg».proof.Proof.Gen.KernelIdeal.Launch
import proofs.«155180_j46213848105841_1_alg».proof.Proof.Gen.KernelIdeal.Points
import proofs.«155180_j46213848105841_1_alg».proof.Proof.Gen.KernelIdeal.Frame
import proofs.«155180_j46213848105841_1_alg».proof.Proof.Gen.ReferenceIdeal
import proofs.«155180_j46213848105841_1_alg».proof.Proof.Gen.ReferenceIdeal.Run
import proofs.«155180_j46213848105841_1_alg».proof.Proof.Gen.ReferenceIdeal.Read
import proofs.«155180_j46213848105841_1_alg».proof.Proof.Gen.Pre_finite_inputs
import proofs.«155180_j46213848105841_1_alg».proof.Proof.Bridge
import Idealize.ShloMosaic.Adequacy
import Idealize.ShloMosaic.Init

noncomputable section

namespace Cert.Proof

open Idealize.ShloMosaic Idealize.SL.Sem Cert.Kernel

/-- The two idealized programs, from memories agreeing on the arguments, end with equal results: the kernel program's
    result array is the reference's term of the same argument arrays, under the precondition. -/
theorem algebraic : Cert.algebraic_KernelIdeal_ReferenceIdeal := by
  intro m ρ m' ρ' hpre hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v57_eq]
  obtain ⟨e0, e1, e2, e3, e4, e5, e6, e7, e8, e9, e10, e11, e12, e13, e14, e15, e16, e17, e18, e19⟩ := hagree c
  rw [e0, e1, e2, e3, e4, e5, e6, e7, e8, e9, e10, e11, e12, e13, e14, e15, e16, e17, e18, e19]
  exact (Cert.Bridge.result_eq_ref m c (hpre c)).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
